-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S128x768 : Shape := ⟨2, ![128, 768]⟩
abbrev S128 : Shape := ⟨1, ![128]⟩
abbrev S2x128 : Shape := ⟨2, ![2, 128]⟩
abbrev S768x1536 : Shape := ⟨2, ![768, 1536]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S768x1536 : S_.BroadcastsInDim S768x1536 (![] : Fin 0 → Fin S768x1536.rank)
  reducesTo_S768x1536_S_d0_1 : S768x1536.ReducesTo [0, 1] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S2x128 .f32) (main_arg8 : FVec F S2x128 .f32) (main_arg9 : FVec F S768x1536 .f32) (main_arg10 : FVec F S768 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S768x1536 .f32 := Host.absf main_arg9
  let main_cst_16 : FVec F S_ .f32 := constant S_ .f32 0x7F800000#32
  let main_v45 : FVec F S768x1536 .f32 := broadcastInDim S768x1536 ![] bcast_S_S768x1536 main_cst_16
  let main_v46 : IVec S768x1536 1 := cmpf .olt main_v44 main_v45
  let main_c_17 : IVec S_ 1 := constantI S_ 1 1#1
  let main_v47 : IVec S_ 1 := (fun x v => Host.reduce IntOp.andi x v reducesTo_S768x1536_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S3072 .f32) (main_arg5 : FVec F S128x768 .f32) (main_arg6 : FVec F S128 .f32) (main_arg7 : FVec F S2x128 .f32) (main_arg8 : FVec F S2x128 .f32) (main_arg9 : FVec F S768x1536 .f32) (main_arg10 : FVec F S768 .f32) (main_v13 : IVec S_ 1) (main_v16 : IVec S3072x768 1) : IVec S_ 1 :=
  let main_c_5 : IVec S_ 1 := constantI S_ 1 1#1
  let main_v17 : IVec S_ 1 := (fun x v => Host.reduce IntOp.andi x v reducesTo_S3072x768_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S128x768 .f32 := Host.absf main_arg5
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x768 .f32) (main_arg1 : FVec F S768 .f32) (main_arg2 : FVec F S768 .f32) (main_arg3 : FVec F S3072x768 .f32) (main_arg4 : FVec F S3072 .f32) (main_arg5 : FVec F S128x768 .f32) (main_arg6 : FVec F S128 .f32) (main_arg7 : FVec F S2x128 .f32) (main_arg8 : FVec F S2x128 .f32) (main_arg9 : FVec F S768x1536 .f32) (main_arg10 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S3072x768 .f32 := Host.absf main_arg3
  let main_cst_4 : FVec F S_ .f32 := constant S_ .f32 0x7F800000#32
  let main_v15 : FVec F S3072x768 .f32 := broadcastInDim S3072x768 ![] bcast_S_S3072x768 main_cst_4
  let main_v16 : IVec S3072x768 1 := cmpf .olt main_v14 main_v15
  fn_part1 (F := F) main_arg4 main_arg5 main_arg6 main_arg7 main_arg8 main_arg9 main_arg10 main_v13 main_v16
-- ==== Kernel.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S128x768 : Shape := ⟨2, ![128, 768]⟩
abbrev S128 : Shape := ⟨1, ![128]⟩
abbrev S2x128 : Shape := ⟨2, ![2, 128]⟩
abbrev S768x1536 : Shape := ⟨2, ![768, 1536]⟩
abbrev S1536x768 : Shape := ⟨2, ![1536, 768]⟩
abbrev S1536 : Shape := ⟨1, ![1536]⟩
abbrev S768x128 : Shape := ⟨2, ![768, 128]⟩
abbrev S1x2048x768 : Shape := ⟨3, ![1, 2048, 768]⟩
abbrev S2048x1536 : Shape := ⟨2, ![2048, 1536]⟩
abbrev S2048x128 : Shape := ⟨2, ![2048, 128]⟩
abbrev S512x1536 : Shape := ⟨2, ![512, 1536]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S1x768 : Shape := ⟨2, ![1, 768]⟩
abbrev S1x1536 : Shape := ⟨2, ![1, 1536]⟩
abbrev S512x128 : Shape := ⟨2, ![512, 128]⟩
abbrev S1x128 : Shape := ⟨2, ![1, 128]⟩
abbrev S128x512 : Shape := ⟨2, ![128, 512]⟩
abbrev S512x512 : Shape := ⟨2, ![512, 512]⟩

abbrev nBuf : Space → Nat
  | .hbm => 24
  | .vmem => 17
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S3072x768, .f32⟩
  | .hbm, ⟨4, _⟩ => ⟨S3072, .f32⟩
  | .hbm, ⟨5, _⟩ => ⟨S128x768, .f32⟩
  | .hbm, ⟨6, _⟩ => ⟨S128, .f32⟩
  | .hbm, ⟨7, _⟩ => ⟨S2x128, .f32⟩
  | .hbm, ⟨8, _⟩ => ⟨S2x128, .f32⟩
  | .hbm, ⟨9, _⟩ => ⟨S768x1536, .f32⟩
  | .hbm, ⟨10, _⟩ => ⟨S768, .f32⟩
  | .hbm, ⟨11, _⟩ => ⟨S1536x768, .f32⟩
  | .hbm, ⟨12, _⟩ => ⟨S768x1536, .f32⟩
  | .hbm, ⟨13, _⟩ => ⟨S768x1536, .bf16⟩
  | .hbm, ⟨14, _⟩ => ⟨S1536x768, .f32⟩
  | .hbm, ⟨15, _⟩ => ⟨S768x1536, .f32⟩
  | .hbm, ⟨16, _⟩ => ⟨S768x1536, .bf16⟩
  | .hbm, ⟨17, _⟩ => ⟨S1536, .f32⟩
  | .hbm, ⟨18, _⟩ => ⟨S1536, .f32⟩
  | .hbm, ⟨19, _⟩ => ⟨S768x128, .f32⟩
  | .hbm, ⟨20, _⟩ => ⟨S768x128, .bf16⟩
  | .hbm, ⟨21, _⟩ => ⟨S1536x768, .f32⟩
  | .hbm, ⟨22, _⟩ => ⟨S1536x768, .bf16⟩
  | .hbm, ⟨23, _⟩ => ⟨S4x2048x768, .f32⟩
  | .local _ .vmem, ⟨0, _⟩ => ⟨S1x2048x768, .f32⟩
  | .local _ .vmem, ⟨1, _⟩ => ⟨S768, .f32⟩
  | .local _ .vmem, ⟨2, _⟩ => ⟨S768, .f32⟩
  | .local _ .vmem, ⟨3, _⟩ => ⟨S768x1536, .bf16⟩
  | .local _ .vmem, ⟨4, _⟩ => ⟨S1536, .f32⟩
  | .local _ .vmem, ⟨5, _⟩ => ⟨S768x1536, .bf16⟩
  | .local _ .vmem, ⟨6, _⟩ => ⟨S1536, .f32⟩
  | .local _ .vmem, ⟨7, _⟩ => ⟨S768x128, .bf16⟩
  | .local _ .vmem, ⟨8, _⟩ => ⟨S128, .f32⟩
  | .local _ .vmem, ⟨9, _⟩ => ⟨S2x128, .f32⟩
  | .local _ .vmem, ⟨10, _⟩ => ⟨S2x128, .f32⟩
  | .local _ .vmem, ⟨11, _⟩ => ⟨S1536x768, .bf16⟩
  | .local _ .vmem, ⟨12, _⟩ => ⟨S768, .f32⟩
  | .local _ .vmem, ⟨13, _⟩ => ⟨S1x2048x768, .f32⟩
  | .local _ .vmem, ⟨14, _⟩ => ⟨S2048x1536, .bf16⟩
  | .local _ .vmem, ⟨15, _⟩ => ⟨S2048x128, .bf16⟩
  | .local _ .vmem, ⟨16, _⟩ => ⟨S512x1536, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c512_i32 : BitVec 32 := 512#32
  let v10 : BitVec 32 := Scalar.muli c0_i32 c512_i32
  v10
def k0_off1 (c0_i32 : BitVec 32) : Fin 3 → Nat :=
  let c0_9 : Index := 0#32
  let c512_i32 : BitVec 32 := 512#32
  let v10 : BitVec 32 := Scalar.muli c0_i32 c512_i32
  let v11 : BitVec 32 := v10
  let v12 : Index := Scalar.indexCast v11
  let c0_10 : Index := 0#32
  ![0, v12.toNat, 0]
def k0_off2 (c0_i32 : BitVec 32) : Fin 2 → Nat :=
  let c512_i32 : BitVec 32 := 512#32
  let v10 : BitVec 32 := Scalar.muli c0_i32 c512_i32
  let v11 : BitVec 32 := v10
  let v49 : Index := Scalar.indexCast v11
  let c0_18 : Index := 0#32
  ![v49.toNat, 0]
def k0_off3 (c0_i32 : BitVec 32) : Fin 2 → Nat :=
  let c512_i32 : BitVec 32 := 512#32
  let v10 : BitVec 32 := Scalar.muli c0_i32 c512_i32
  let v11 : BitVec 32 := v10
  let v72 : Index := Scalar.indexCast v11
  let c0_22 : Index := 0#32
  ![v72.toNat, 0]
def k0_mult2 : BitVec 32 :=
  let c1_i32 : BitVec 32 := 1#32
  let c512_i32_23 : BitVec 32 := 512#32
  let v76 : BitVec 32 := Scalar.muli c1_i32 c512_i32_23
  v76
def k0_mult3 : BitVec 32 :=
  let c2_i32 : BitVec 32 := 2#32
  let c512_i32_39 : BitVec 32 := 512#32
  let v142 : BitVec 32 := Scalar.muli c2_i32 c512_i32_39
  v142
def k0_mult4 : BitVec 32 :=
  let c3_i32 : BitVec 32 := 3#32
  let c512_i32_55 : BitVec 32 := 512#32
  let v208 : BitVec 32 := Scalar.muli c3_i32 c512_i32_55
  v208
def k0_mult5 : BitVec 32 :=
  let c0_i32_71 : BitVec 32 := 0#32
  let c512_i32_72 : BitVec 32 := 512#32
  let v274 : BitVec 32 := Scalar.muli c0_i32_71 c512_i32_72
  v274
def k0_mult6 : BitVec 32 :=
  let c0_i32_89 : BitVec 32 := 0#32
  let c512_i32_90 : BitVec 32 := 512#32
  let v335 : BitVec 32 := Scalar.muli c0_i32_89 c512_i32_90
  v335
def k0_mult7 : BitVec 32 :=
  let c1_i32_101 : BitVec 32 := 1#32
  let c512_i32_102 : BitVec 32 := 512#32
  let v355 : BitVec 32 := Scalar.muli c1_i32_101 c512_i32_102
  v355
def k0_mult8 : BitVec 32 :=
  let c2_i32_113 : BitVec 32 := 2#32
  let c512_i32_114 : BitVec 32 := 512#32
  let v375 : BitVec 32 := Scalar.muli c2_i32_113 c512_i32_114
  v375
def k0_mult9 : BitVec 32 :=
  let c3_i32_125 : BitVec 32 := 3#32
  let c512_i32_126 : BitVec 32 := 512#32
  let v395 : BitVec 32 := Scalar.muli c3_i32_125 c512_i32_126
  v395
def k0_mult10 : BitVec 32 :=
  let c1_i32_145 : BitVec 32 := 1#32
  let c512_i32_146 : BitVec 32 := 512#32
  let v429 : BitVec 32 := Scalar.muli c1_i32_145 c512_i32_146
  v429
def k0_mult11 : BitVec 32 :=
  let c0_i32_163 : BitVec 32 := 0#32
  let c512_i32_164 : BitVec 32 := 512#32
  let v490 : BitVec 32 := Scalar.muli c0_i32_163 c512_i32_164
  v490
def k0_mult12 : BitVec 32 :=
  let c1_i32_175 : BitVec 32 := 1#32
  let c512_i32_176 : BitVec 32 := 512#32
  let v510 : BitVec 32 := Scalar.muli c1_i32_175 c512_i32_176
  v510
def k0_mult13 : BitVec 32 :=
  let c2_i32_187 : BitVec 32 := 2#32
  let c512_i32_188 : BitVec 32 := 512#32
  let v530 : BitVec 32 := Scalar.muli c2_i32_187 c512_i32_188
  v530
def k0_mult14 : BitVec 32 :=
  let c3_i32_199 : BitVec 32 := 3#32
  let c512_i32_200 : BitVec 32 := 512#32
  let v550 : BitVec 32 := Scalar.muli c3_i32_199 c512_i32_200
  v550
def k0_mult15 : BitVec 32 :=
  let c2_i32_219 : BitVec 32 := 2#32
  let c512_i32_220 : BitVec 32 := 512#32
  let v584 : BitVec 32 := Scalar.muli c2_i32_219 c512_i32_220
  v584
def k0_mult16 : BitVec 32 :=
  let c0_i32_237 : BitVec 32 := 0#32
  let c512_i32_238 : BitVec 32 := 512#32
  let v645 : BitVec 32 := Scalar.muli c0_i32_237 c512_i32_238
  v645
def k0_mult17 : BitVec 32 :=
  let c1_i32_249 : BitVec 32 := 1#32
  let c512_i32_250 : BitVec 32 := 512#32
  let v665 : BitVec 32 := Scalar.muli c1_i32_249 c512_i32_250
  v665
def k0_mult18 : BitVec 32 :=
  let c2_i32_261 : BitVec 32 := 2#32
  let c512_i32_262 : BitVec 32 := 512#32
  let v685 : BitVec 32 := Scalar.muli c2_i32_261 c512_i32_262
  v685
def k0_mult19 : BitVec 32 :=
  let c3_i32_273 : BitVec 32 := 3#32
  let c512_i32_274 : BitVec 32 := 512#32
  let v705 : BitVec 32 := Scalar.muli c3_i32_273 c512_i32_274
  v705
def k0_mult20 : BitVec 32 :=
  let c3_i32_293 : BitVec 32 := 3#32
  let c512_i32_294 : BitVec 32 := 512#32
  let v739 : BitVec 32 := Scalar.muli c3_i32_293 c512_i32_294
  v739
def k0_mult21 : BitVec 32 :=
  let c0_i32_311 : BitVec 32 := 0#32
  let c512_i32_312 : BitVec 32 := 512#32
  let v800 : BitVec 32 := Scalar.muli c0_i32_311 c512_i32_312
  v800
def k0_mult22 : BitVec 32 :=
  let c1_i32_323 : BitVec 32 := 1#32
  let c512_i32_324 : BitVec 32 := 512#32
  let v820 : BitVec 32 := Scalar.muli c1_i32_323 c512_i32_324
  v820
def k0_mult23 : BitVec 32 :=
  let c2_i32_335 : BitVec 32 := 2#32
  let c512_i32_336 : BitVec 32 := 512#32
  let v840 : BitVec 32 := Scalar.muli c2_i32_335 c512_i32_336
  v840
def k0_mult24 : BitVec 32 :=
  let c3_i32_347 : BitVec 32 := 3#32
  let c512_i32_348 : BitVec 32 := 512#32
  let v860 : BitVec 32 := Scalar.muli c3_i32_347 c512_i32_348
  v860
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

class Facts₀ : Prop where
  slices_S3072x768_S1536x768_0_0 : S3072x768.Slices ![0, 0] S1536x768
  transposes_S1536x768_S768x1536_1_0 : S1536x768.Transposes [1, 0] S768x1536
  bitsLt_bf16_f32 : FTy.bits .bf16 < FTy.bits .f32
  slices_S3072x768_S1536x768_1536_0 : S3072x768.Slices ![1536, 0] S1536x768
  slices_S3072_S1536_0 : S3072.Slices ![0] S1536
  slices_S3072_S1536_1536 : S3072.Slices ![1536] S1536
  transposes_S128x768_S768x128_1_0 : S128x768.Transposes [1, 0] S768x128
  transposes_S768x1536_S1536x768_1_0 : S768x1536.Transposes [1, 0] S1536x768
  inb_S768_S768_0 : ∀ a, (![0] : Fin 1 → Nat) a + S768.size a ≤ S768.size a
  h_S768 : 0 < S768.numel
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  inb_S1536_S1536_0 : ∀ a, (![0] : Fin 1 → Nat) a + S1536.size a ≤ S1536.size a
  h_S1536 : 0 < S1536.numel
  shapeCasts_S1536_S1536 : S1536.ShapeCasts S1536
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  shapeCasts_S768_S1x768 : S768.ShapeCasts S1x768
  broadcasts_S1x768_S512x768 : S1x768.Broadcasts S512x768
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  shapeCasts_S1536_S1x1536 : S1536.ShapeCasts S1x1536
  broadcasts_S1x1536_S512x1536 : S1x1536.Broadcasts S512x1536
  h_S512x1536 : 0 < S512x1536.numel
  shapeCasts_S512x1536_S512x1536 : S512x1536.ShapeCasts S512x1536
  inb_S768x128_S768x128_0_0 : ∀ a, (![0, 0] : Fin 2 → Nat) a + S768x128.size a ≤ S768x128.size a
  h_S768x128 : 0 < S768x128.numel
  shapeCasts_S768x128_S768x128 : S768x128.ShapeCasts S768x128
  shapeCasts_S128_S1x128 : S128.ShapeCasts S1x128
  broadcasts_S1x128_S512x128 : S1x128.Broadcasts S512x128
  slices_S2x128_o1_0_S1x128 : S2x128.Slices ![1, 0] S1x128
  shapeCasts_S1x128_S128 : S1x128.ShapeCasts S128
  h_S512x128 : 0 < S512x128.numel
  shapeCasts_S512x128_S512x128 : S512x128.ShapeCasts S512x128
  slices_S2x128_o0_0_S1x128 : S2x128.Slices ![0, 0] S1x128
  inb_S512x1536_S512x1536_0_0 : ∀ a, (![0, 0] : Fin 2 → Nat) a + S512x1536.size a ≤ S512x1536.size a
  transposes_S512x128_p1_0_S128x512 : S512x128.Transposes [1, 0] S128x512
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  shapeCasts_S512x768_S1x512x768 : S512x768.ShapeCasts S1x512x768
  dot_S512x768_S768x1536_S512x1536_1_0_0_1_n_n_wf : DotDims.WF S512x768 S768x1536 S512x1536 [1] [0] [0] [1] [] []
  dot_S512x768_S768x128_S512x128_1_0_0_1_n_n_wf : DotDims.WF S512x768 S768x128 S512x128 [1] [0] [0] [1] [] []
  dot_S512x128_S128x512_S512x512_1_0_0_1_n_n_wf : DotDims.WF S512x128 S128x512 S512x512 [1] [0] [0] [1] [] []
  dot_S512x512_S512x1536_S512x1536_1_0_0_1_n_n_wf : DotDims.WF S512x512 S512x1536 S512x1536 [1] [0] [0] [1] [] []
  dot_S512x1536_S1536x768_S512x768_1_0_0_1_n_n_wf : DotDims.WF S512x1536 S1536x768 S512x768 [1] [0] [0] [1] [] []
  hrank0 : 0 < grid0.rank
  k0_mult1_dvd : 512 ∣ k0_mult1.toNat
  k0_off1_inb : ∀ (r : Fin 4), ∀ a, (k0_off1 (BitVec.ofNat 32 r.val)) a + S1x512x768.size a ≤ S1x2048x768.size a
  k0_off2_inb : ∀ (r : Fin 4), ∀ a, (k0_off2 (BitVec.ofNat 32 r.val)) a + S512x1536.size a ≤ S2048x1536.size a
  k0_off2_packedbf16 : ∀ (r : Fin 4), (Rect.unit (s := S2048x1536) (k0_off2 (BitVec.ofNat 32 r.val)) S512x1536.size (k0_off2_inb r)).PackedRows (EltTy.packing .bf16)
  k0_off3_inb : ∀ (r : Fin 4), ∀ a, (k0_off3 (BitVec.ofNat 32 r.val)) a + S512x128.size a ≤ S2048x128.size a
  k0_off3_packedbf16 : ∀ (r : Fin 4), (Rect.unit (s := S2048x128) (k0_off3 (BitVec.ofNat 32 r.val)) S512x128.size (k0_off3_inb r)).PackedRows (EltTy.packing .bf16)
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  k0_mult17_dvd : 512 ∣ k0_mult17.toNat
  k0_mult18_dvd : 512 ∣ k0_mult18.toNat
  k0_mult19_dvd : 512 ∣ k0_mult19.toNat
  k0_mult20_dvd : 512 ∣ k0_mult20.toNat
  k0_mult21_dvd : 512 ∣ k0_mult21.toNat
  k0_mult22_dvd : 512 ∣ k0_mult22.toNat
  k0_mult23_dvd : 512 ∣ k0_mult23.toNat
  k0_mult24_dvd : 512 ∣ k0_mult24.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x2048x768.size a
  hwx0_0 : ∀ i : grid0.Coords, EltTy.bits .f32 = 32 ∨ (Rect.block (s := S4x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1536.size a ≤ S768x1536.size a
  hwx0_3 : ∀ i : grid0.Coords, EltTy.bits .bf16 = 32 ∨ (Rect.block (s := S768x1536) S768x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536.size a ≤ S1536.size a
  hwx0_4 : ∀ i : grid0.Coords, EltTy.bits .f32 = 32 ∨ (Rect.block (s := S1536) S1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1536.size a ≤ S768x1536.size a
  hwx0_5 : ∀ i : grid0.Coords, EltTy.bits .bf16 = 32 ∨ (Rect.block (s := S768x1536) S768x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536.size a ≤ S1536.size a
  hwx0_6 : ∀ i : grid0.Coords, EltTy.bits .f32 = 32 ∨ (Rect.block (s := S1536) S1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x128.size a ≤ S768x128.size a
  hwx0_7 : ∀ i : grid0.Coords, EltTy.bits .bf16 = 32 ∨ (Rect.block (s := S768x128) S768x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1536x768.size a ≤ S1536x768.size a
  hwx0_11 : ∀ i : grid0.Coords, EltTy.bits .bf16 = 32 ∨ (Rect.block (s := S1536x768) S1536x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048x768.size a ≤ S4x2048x768.size a
  hwx0_13 : ∀ i : grid0.Coords, EltTy.bits .f32 = 32 ∨ (Rect.block (s := S4x2048x768) S1x2048x768.size (cc0_transform_13 i) (hinb0_13 i)).WholeWords (EltTy.packing .f32)

variable [Facts₀]

def dot_S512x768_S768x1536_S512x1536_1_0_0_1_n_n : DotDims S512x768 S768x1536 S512x1536 where
  lhsContracting := [1]
  rhsContracting := [0]
  lhsNonContracting := [0]
  rhsNonContracting := [1]
  lhsBatch := []
  rhsBatch := []
  wf := dot_S512x768_S768x1536_S512x1536_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x1536_S1536x768_S512x768_1_0_0_1_n_n : DotDims S512x1536 S1536x768 S512x768 where
  lhsContracting := [1]
  rhsContracting := [0]
  lhsNonContracting := [0]
  rhsNonContracting := [1]
  lhsBatch := []
  rhsBatch := []
  wf := dot_S512x1536_S1536x768_S512x768_1_0_0_1_n_n_wf

abbrev win0_0 : Pipeline.Window sig grid0 :=
  Pipeline.Window.ofSpec (Memref.whole main_arg0) S1x2048x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S768x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1536x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x2048x768.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S128x768 : Shape := ⟨2, ![128, 768]⟩
abbrev S128 : Shape := ⟨1, ![128]⟩
abbrev S2x128 : Shape := ⟨2, ![2, 128]⟩
abbrev S768x1536 : Shape := ⟨2, ![768, 1536]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x3072 : Shape := ⟨3, ![4, 2048, 3072]⟩
abbrev S1x1x3072 : Shape := ⟨3, ![1, 1, 3072]⟩
abbrev S4x2048x1536 : Shape := ⟨3, ![4, 2048, 1536]⟩
abbrev S4x2048x128 : Shape := ⟨3, ![4, 2048, 128]⟩
abbrev S1x1x128 : Shape := ⟨3, ![1, 1, 128]⟩
abbrev S1x128 : Shape := ⟨2, ![1, 128]⟩
abbrev S4x2048x2048 : Shape := ⟨3, ![4, 2048, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S3072x768, .f32⟩
  | .hbm, ⟨4, _⟩ => ⟨S3072, .f32⟩
  | .hbm, ⟨5, _⟩ => ⟨S128x768, .f32⟩
  | .hbm, ⟨6, _⟩ => ⟨S128, .f32⟩
  | .hbm, ⟨7, _⟩ => ⟨S2x128, .f32⟩
  | .hbm, ⟨8, _⟩ => ⟨S2x128, .f32⟩
  | .hbm, ⟨9, _⟩ => ⟨S768x1536, .f32⟩
  | .hbm, ⟨10, _⟩ => ⟨S768, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x768, .f32⟩
  | .hbm, ⟨18, _⟩ => ⟨S4x2048x768, .f32⟩
  | .hbm, ⟨19, _⟩ => ⟨S4x2048x768, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x768, .f32⟩
  | .hbm, ⟨27, _⟩ => ⟨S4x2048x768, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x768, .f32⟩
  | .hbm, ⟨33, _⟩ => ⟨S4x2048x768, .f32⟩
  | .hbm, ⟨34, _⟩ => ⟨S1x1x768, .f32⟩
  | .hbm, ⟨35, _⟩ => ⟨S4x2048x768, .f32⟩
  | .hbm, ⟨36, _⟩ => ⟨S4x2048x768, .f32⟩
  | .hbm, ⟨37, _⟩ => ⟨S1x1x768, .f32⟩
  | .hbm, ⟨38, _⟩ => ⟨S4x2048x768, .f32⟩
  | .hbm, ⟨39, _⟩ => ⟨S4x2048x768, .f32⟩
  | .hbm, ⟨40, _⟩ => ⟨S4x2048x3072, .f32⟩
  | .hbm, ⟨41, _⟩ => ⟨S1x1x3072, .f32⟩
  | .hbm, ⟨42, _⟩ => ⟨S4x2048x3072, .f32⟩
  | .hbm, ⟨43, _⟩ => ⟨S4x2048x3072, .f32⟩
  | .hbm, ⟨44, _⟩ => ⟨S4x2048x3072, .f32⟩
  | .hbm, ⟨45, _⟩ => ⟨S4x2048x3072, .f32⟩
  | .hbm, ⟨46, _⟩ => ⟨S_, .f32⟩
  | .hbm, ⟨47, _⟩ => ⟨S4x2048x3072, .f32⟩
  | .hbm, ⟨48, _⟩ => ⟨S4x2048x3072, .f32⟩
  | .hbm, ⟨49, _⟩ => ⟨S_, .f32⟩
  | .hbm, ⟨50, _⟩ => ⟨S4x2048x3072, .f32⟩
  | .hbm, ⟨51, _⟩ => ⟨S4x2048x3072, .f32⟩
  | .hbm, ⟨52, _⟩ => ⟨S4x2048x3072, .f32⟩
  | .hbm, ⟨53, _⟩ => ⟨S4x2048x1536, .f32⟩
  | .hbm, ⟨54, _⟩ => ⟨S4x2048x1536, .f32⟩
  | .hbm, ⟨55, _⟩ => ⟨S4x2048x128, .f32⟩
  | .hbm, ⟨56, _⟩ => ⟨S1x1x128, .f32⟩
  | .hbm, ⟨57, _⟩ => ⟨S4x2048x128, .f32⟩
  | .hbm, ⟨58, _⟩ => ⟨S4x2048x128, .f32⟩
  | .hbm, ⟨59, _⟩ => ⟨S4x2048x128, .f32⟩
  | .hbm, ⟨60, _⟩ => ⟨S4x2048x128, .f32⟩
  | .hbm, ⟨61, _⟩ => ⟨S_, .f32⟩
  | .hbm, ⟨62, _⟩ => ⟨S4x2048x128, .f32⟩
  | .hbm, ⟨63, _⟩ => ⟨S4x2048x128, .f32⟩
  | .hbm, ⟨64, _⟩ => ⟨S_, .f32⟩
  | .hbm, ⟨65, _⟩ => ⟨S4x2048x128, .f32⟩
  | .hbm, ⟨66, _⟩ => ⟨S4x2048x128, .f32⟩
  | .hbm, ⟨67, _⟩ => ⟨S4x2048x128, .f32⟩
  | .hbm, ⟨68, _⟩ => ⟨S1x128, .f32⟩
  | .hbm, ⟨69, _⟩ => ⟨S128, .f32⟩
  | .hbm, ⟨70, _⟩ => ⟨S1x1x128, .f32⟩
  | .hbm, ⟨71, _⟩ => ⟨S4x2048x128, .f32⟩
  | .hbm, ⟨72, _⟩ => ⟨S4x2048x128, .f32⟩
  | .hbm, ⟨73, _⟩ => ⟨S1x128, .f32⟩
  | .hbm, ⟨74, _⟩ => ⟨S128, .f32⟩
  | .hbm, ⟨75, _⟩ => ⟨S1x1x128, .f32⟩
  | .hbm, ⟨76, _⟩ => ⟨S4x2048x128, .f32⟩
  | .hbm, ⟨77, _⟩ => ⟨S4x2048x128, .f32⟩
  | .hbm, ⟨78, _⟩ => ⟨S1x128, .f32⟩
  | .hbm, ⟨79, _⟩ => ⟨S128, .f32⟩
  | .hbm, ⟨80, _⟩ => ⟨S1x1x128, .f32⟩
  | .hbm, ⟨81, _⟩ => ⟨S4x2048x128, .f32⟩
  | .hbm, ⟨82, _⟩ => ⟨S4x2048x128, .f32⟩
  | .hbm, ⟨83, _⟩ => ⟨S1x128, .f32⟩
  | .hbm, ⟨84, _⟩ => ⟨S128, .f32⟩
  | .hbm, ⟨85, _⟩ => ⟨S1x1x128, .f32⟩
  | .hbm, ⟨86, _⟩ => ⟨S4x2048x128, .f32⟩
  | .hbm, ⟨87, _⟩ => ⟨S4x2048x128, .f32⟩
  | .hbm, ⟨88, _⟩ => ⟨S4x2048x2048, .f32⟩
  | .hbm, ⟨89, _⟩ => ⟨S_, .f32⟩
  | .hbm, ⟨90, _⟩ => ⟨S4x2048x2048, .f32⟩
  | .hbm, ⟨91, _⟩ => ⟨S4x2048x2048, .f32⟩
  | .hbm, ⟨92, _⟩ => ⟨S_, .f32⟩
  | .hbm, ⟨93, _⟩ => ⟨S4x2048x2048, .f32⟩
  | .hbm, ⟨94, _⟩ => ⟨S4x2048x2048, .f32⟩
  | .hbm, ⟨95, _⟩ => ⟨S4x2048x2048, .f32⟩
  | .hbm, ⟨96, _⟩ => ⟨S4x2048x1536, .f32⟩
  | .hbm, ⟨97, _⟩ => ⟨S4x2048x1536, .f32⟩
  | .hbm, ⟨98, _⟩ => ⟨S4x2048x768, .f32⟩
  | .hbm, ⟨99, _⟩ => ⟨S1x1x768, .f32⟩
  | .hbm, ⟨100, _⟩ => ⟨S4x2048x768, .f32⟩
  | .hbm, ⟨101, _⟩ => ⟨S4x2048x768, .f32⟩
  | .hbm, ⟨102, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_4 : Ref sig .tc := ⟨.hbm, 89, rfl⟩
abbrev main_v57 : Ref sig .tc := ⟨.hbm, 90, rfl⟩
abbrev main_v58 : Ref sig .tc := ⟨.hbm, 91, rfl⟩
abbrev main_call2_cst : Ref sig .tc := ⟨.hbm, 92, rfl⟩
abbrev main_call2_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]

class Facts₀ : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  slices_S4x2048x3072_S4x2048x1536_0_0_0 : S4x2048x3072.Slices ![0, 0, 0] S4x2048x1536
  slices_S4x2048x3072_S4x2048x1536_0_0_1536 : S4x2048x3072.Slices ![0, 0, 1536] S4x2048x1536
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x128 : S_.BroadcastsInDim S4x2048x128 (![] : Fin 0 → Fin S4x2048x128.rank)
  slices_S2x128_S1x128_0_0 : S2x128.Slices ![0, 0] S1x128
  shapeCasts_S1x128_S128 : S1x128.ShapeCasts S128
  slices_S2x128_S1x128_1_0 : S2x128.Slices ![1, 0] S1x128
  bcast_S_S4x2048x2048 : S_.BroadcastsInDim S4x2048x2048 (![] : Fin 0 → Fin S4x2048x2048.rank)
  dot_S4x2048x768_S3072x768_S4x2048x3072_2_1_01_0_n_n_wf : DotDims.WF S4x2048x768 S3072x768 S4x2048x3072 [2] [1] [0, 1] [0] [] []
  dot_S4x2048x768_S128x768_S4x2048x128_2_1_01_0_n_n_wf : DotDims.WF S4x2048x768 S128x768 S4x2048x128 [2] [1] [0, 1] [0] [] []
  dot_S4x2048x128_S4x2048x128_S4x2048x2048_2_2_1_1_0_0_wf : DotDims.WF S4x2048x128 S4x2048x128 S4x2048x2048 [2] [2] [1] [1] [0] [0]
  dot_S4x2048x2048_S4x2048x1536_S4x2048x1536_2_1_1_2_0_0_wf : DotDims.WF S4x2048x2048 S4x2048x1536 S4x2048x1536 [2] [1] [1] [2] [0] [0]
  dot_S4x2048x1536_S768x1536_S4x2048x768_2_1_01_0_n_n_wf : DotDims.WF S4x2048x1536 S768x1536 S4x2048x768 [2] [1] [0, 1] [0] [] []

variable [Facts₀]

def dot_S4x2048x768_S3072x768_S4x2048x3072_2_1_01_0_n_n : DotDims S4x2048x768 S3072x768 S4x2048x3072 where
  lhsContracting := [2]
  rhsContracting := [1]
  lhsNonContracting := [0, 1]
  rhsNonContracting := [0]
  lhsBatch := []
  rhsBatch := []
  wf := dot_S4x2048x768_S3072x768_S4x2048x3072_2_1_01_0_n_n_wf
def dot_S4x2048x768_S128x768_S4x2048x128_2_1_01_0_n_n : DotDims S4x2048x768 S128x768 S4x2048x128 where
  lhsContracting := [2]
  rhsContracting := [1]
  lhsNonContracting := [0, 1]
  rhsNonContracting := [0]
  lhsBatch := []
  rhsBatch := []
  wf := dot_S4x2048x768_S128x768_S4x2048x128_2_1_01_0_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x1536_S4x2048x1536_2_1_1_2_0_0 : DotDims S4x2048x2048 S4x2048x1536 S4x2048x1536 where
  lhsContracting := [2]
  rhsContracting := [1]
  lhsNonContracting := [1]
  rhsNonContracting := [2]
  lhsBatch := [0]
  rhsBatch := [0]
  wf := dot_S4x2048x2048_S4x2048x1536_S4x2048x1536_2_1_1_2_0_0_wf
def dot_S4x2048x1536_S768x1536_S4x2048x768_2_1_01_0_n_n : DotDims S4x2048x1536 S768x1536 S4x2048x768 where
  lhsContracting := [2]
  rhsContracting := [1]
  lhsNonContracting := [0, 1]
  rhsNonContracting := [0]
  lhsBatch := []
  rhsBatch := []
  wf := dot_S4x2048x1536_S768x1536_S4x2048x768_2_1_01_0_n_n_wf

class Facts : Prop extends Facts₀ where

variable [Facts]
-- ==== Proof.Tile.lean ====
/-
  One query tile of the gated attention unit as ONE composition of the body's vector operations.

  The body handles the 2048 rows of a batch in four tiles of 512 rows. For every tile it normalises the rows, and
  forms the value tile `vT` and the key tile `kT`; then, per query tile, the query `qT`, the gate `gT`, the
  accumulated attention `accK` (from the zero tile, one step `stepT` per key/value tile, in order) and the output tile
  `outK` (the gated accumulator projected, plus the bias, plus the tile's own rows).
  The same operations occur eight times in the body with their intermediate values cut at different places; here each
  occurs once, so that everything said about a tile is said once.
-/
import proofs.«134153_j60473139527723_2_alg».proof.Proof.Gen.KernelIdeal.Skeleton

noncomputable section

namespace Cert.KernelIdeal.Tile

open Cert.KernelIdeal Cert.KernelIdeal.Gen Idealize.ShloMosaic

variable {F : FTy → Type} [FloatOps F]

section
variable (lw lb : Vec F S768 .f32) (wv : Vec F S768x1536 .bf16) (bv : Vec F S1536 .f32)
  (wg : Vec F S768x1536 .bf16) (bg : Vec F S1536 .f32) (wqk : Vec F S768x128 .bf16) (bqk : Vec F S128 .f32)
  (gam bet : Vec F S2x128 .f32) (wo : Vec F S1536x768 .bf16) (bo : Vec F S768 .f32)

/-- The normalised rows of a tile. -/
def lnT (x : Vec F S1x512x768 .f32) : FVec F S512x768 .bf16 := k0_pay4 lw lb x
/-- The value tile: silu of the normalised rows times the value weights plus their bias. -/
def vT (x : Vec F S1x512x768 .f32) : FVec F S512x1536 .bf16 := k0_pay5 (k0_pay2 bv) (lnT lw lb x) wv
/-- The key tile. -/
def kT (x : Vec F S1x512x768 .f32) : FVec F S512x128 .bf16 := k0_pay6 gam bet bqk (lnT lw lb x) wqk
/-- The query tile. -/
def qT (x : Vec F S1x512x768 .f32) : FVec F S512x128 .bf16 := k0_pay40 lw lb gam bet bqk x wqk
/-- The gate tile. -/
def gT (x : Vec F S1x512x768 .f32) : FVec F S512x1536 .f32 := k0_pay41 (k0_pay3 bg) (k0_pay39 lw lb x) wg
/-- One accumulation step: the accumulator plus the squared rectified scaled similarities times a value tile. -/
def stepT (q : FVec F S512x128 .bf16) (k : Vec F S512x128 .bf16) (v : Vec F S512x1536 .bf16) (acc : Vec F S512x1536 .f32) :
    FVec F S512x1536 .f32 := k0_pay43 q k v acc
/-- The accumulated attention of a query over four given key tiles and four given value tiles, from the zero tile. -/
def accK (q : FVec F S512x128 .bf16) (k0 k1 k2 k3 : Vec F S512x128 .bf16) (v0 v1 v2 v3 : Vec F S512x1536 .bf16) :
    FVec F S512x1536 .f32 :=
  stepT q k3 v3 (stepT q k2 v2 (stepT q k1 v1 (stepT q k0 v0 k0_pay42)))
/-- The output tile of a query tile over four given key tiles and four given value tiles. -/
def outK (xq : Vec F S1x512x768 .f32) (k0 k1 k2 k3 : Vec F S512x128 .bf16) (v0 v1 v2 v3 : Vec F S512x1536 .bf16) :
    FVec F S1x512x768 .f32 :=
  k0_pay47 bo (k0_pay38 xq) (gT lw lb wg bg xq) (accK (qT lw lb wqk bqk gam bet xq) k0 k1 k2 k3 v0 v1 v2 v3) wo

end

end Cert.KernelIdeal.Tile

end
-- ==== Proof.Pieces.lean ====
/-
  What one run of the body leaves in the output block: four tiles of 512 rows, each the output tile of its rows.

  The body first fills the key scratch and the value scratch, 512 rows at a time, with the key tile and the value tile
  of those rows; then, for each block of 512 query rows, it accumulates over the four key/value blocks it loads back
  from the scratch and stores the output tile of those rows into the output block. The body spells each tile's
  arithmetic with its intermediate values cut at different places; they are one composition, `Tile.outK`. A load of
  the block of rows written last reads what was just written; the loads of the three earlier blocks are kept here as
  loads of what the scratch holds (`keyRows`, `valRows`), to be read index by index later.
-/
import proofs.«134153_j60473139527723_2_alg».proof.Proof.Gen.KernelIdeal.Frame
import proofs.«134153_j60473139527723_2_alg».proof.Proof.Tile
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- Rows `o …` (512 of them) of the batch's block of the input. -/
abbrev xrows (x0 : Vec F S1x2048x768 .f32) (o : Nat) (h : ∀ a, (![0, o, 0] : Fin 3 → Nat) a + S1x512x768.size a ≤ S1x2048x768.size a) :
    Vec F S1x512x768 .f32 := View.ld x0 (Rect.unit (s := S1x2048x768) ![0, o, 0] S1x512x768.size h)

section
variable (x0 : Vec F S1x2048x768 .f32) (x1 x2 : Vec F S768 .f32) (x3 : Vec F S768x1536 .bf16) (x4 : Vec F S1536 .f32)
  (x5 : Vec F S768x1536 .bf16) (x6 : Vec F S1536 .f32) (x7 : Vec F S768x128 .bf16) (x8 : Vec F S128 .f32)
  (x9 x10 : Vec F S2x128 .f32) (x11 : Vec F S1536x768 .bf16) (x12 : Vec F S768 .f32)

/-- What the key scratch holds once the four tiles are built: four blocks of 512 rows, the last written first in the list. -/
def keyPieces : List (View.Piece (Elt F) S2048x128 .bf16) :=
  [⟨Rect.unit (s := S2048x128) ![1536, 0] S512x128.size (by decide), Tile.kT x1 x2 x7 x8 x9 x10 (xrows x0 1536 (by decide))⟩,
   ⟨Rect.unit (s := S2048x128) ![1024, 0] S512x128.size (by decide), Tile.kT x1 x2 x7 x8 x9 x10 (xrows x0 1024 (by decide))⟩,
   ⟨Rect.unit (s := S2048x128) ![512, 0] S512x128.size (by decide), Tile.kT x1 x2 x7 x8 x9 x10 (xrows x0 512 (by decide))⟩,
   ⟨Rect.unit (s := S2048x128) ![0, 0] S512x128.size (by decide), Tile.kT x1 x2 x7 x8 x9 x10 (xrows x0 0 (by decide))⟩]

/-- What the value scratch holds likewise. -/
def valPieces : List (View.Piece (Elt F) S2048x1536 .bf16) :=
  [⟨Rect.unit (s := S2048x1536) ![1536, 0] S512x1536.size (by decide), Tile.vT x1 x2 x3 x4 (xrows x0 1536 (by decide))⟩,
   ⟨Rect.unit (s := S2048x1536) ![1024, 0] S512x1536.size (by decide), Tile.vT x1 x2 x3 x4 (xrows x0 1024 (by decide))⟩,
   ⟨Rect.unit (s := S2048x1536) ![512, 0] S512x1536.size (by decide), Tile.vT x1 x2 x3 x4 (xrows x0 512 (by decide))⟩,
   ⟨Rect.unit (s := S2048x1536) ![0, 0] S512x1536.size (by decide), Tile.vT x1 x2 x3 x4 (xrows x0 0 (by decide))⟩]

/-- The key tile a load of rows `o …` of the key scratch reads. -/
def keyRows (kv : View sig .tc .vmem S2048x128 .bf16) (o : Nat) (h : ∀ a, (![o, 0] : Fin 2 → Nat) a + S512x128.size a ≤ S2048x128.size a) :
    Vec F S512x128 .bf16 :=
  kv.readCov (keyPieces x0 x1 x2 x7 x8 x9 x10) (Rect.unit (s := S2048x128) ![o, 0] S512x128.size h).toLoadRect

/-- The value tile a load of rows `o …` of the value scratch reads. -/
def valRows (vv : View sig .tc .vmem S2048x1536 .bf16) (o : Nat) (h : ∀ a, (![o, 0] : Fin 2 → Nat) a + S512x1536.size a ≤ S2048x1536.size a) :
    Vec F S512x1536 .bf16 :=
  vv.readCov (valPieces x0 x1 x2 x3 x4) (Rect.unit (s := S2048x1536) ![o, 0] S512x1536.size h).toLoadRect

/-- The output tile of the query rows `o …`. -/
def outRows (kv : View sig .tc .vmem S2048x128 .bf16) (vv : View sig .tc .vmem S2048x1536 .bf16) (o : Nat)
    (h : ∀ a, (![0, o, 0] : Fin 3 → Nat) a + S1x512x768.size a ≤ S1x2048x768.size a) : Vec F S1x512x768 .f32 :=
  Tile.outK x1 x2 x5 x6 x7 x8 x9 x10 x11 x12 (xrows x0 o h)
    (keyRows x0 x1 x2 x7 x8 x9 x10 kv 0 (by decide)) (keyRows x0 x1 x2 x7 x8 x9 x10 kv 512 (by decide))
    (keyRows x0 x1 x2 x7 x8 x9 x10 kv 1024 (by decide)) (Tile.kT x1 x2 x7 x8 x9 x10 (xrows x0 1536 (by decide)))
    (valRows x0 x1 x2 x3 x4 vv 0 (by decide)) (valRows x0 x1 x2 x3 x4 vv 512 (by decide))
    (valRows x0 x1 x2 x3 x4 vv 1024 (by decide)) (Tile.vT x1 x2 x3 x4 (xrows x0 1536 (by decide)))

end

set_option maxHeartbeats 4000000 in
/-- The pieces the body leaves in the output block: its four tiles of 512 rows, each the output tile of its rows. -/
theorem pieces (c : Dev nD) (i : grid0.Coords) (arg1 : Memref sig .tc .vmem S1x2048x768 .f32) (harg1 : arg1.IsWhole) (arg2 : Memref sig .tc .vmem S768 .f32) (harg2 : arg2.IsWhole) (arg3 : Memref sig .tc .vmem S768 .f32) (harg3 : arg3.IsWhole) (arg4 : Memref sig .tc .vmem S768x1536 .bf16) (harg4 : arg4.IsWhole) (arg5 : Memref sig .tc .vmem S1536 .f32) (harg5 : arg5.IsWhole) (arg6 : Memref sig .tc .vmem S768x1536 .bf16) (harg6 : arg6.IsWhole) (arg7 : Memref sig .tc .vmem S1536 .f32) (harg7 : arg7.IsWhole) (arg8 : Memref sig .tc .vmem S768x128 .bf16) (harg8 : arg8.IsWhole) (arg9 : Memref sig .tc .vmem S128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S1536x768 .bf16) (harg12 : arg12.IsWhole) (arg13 : Memref sig .tc .vmem S768 .f32) (harg13 : arg13.IsWhole) (arg14 : Memref sig .tc .vmem S1x2048x768 .f32) (harg14 : arg14.IsWhole) (arg15 : Memref sig .tc .vmem S2048x1536 .bf16) (harg15 : arg15.IsWhole) (arg16 : Memref sig .tc .vmem S2048x128 .bf16) (harg16 : arg16.IsWhole) (arg17 : Memref sig .tc .vmem S512x1536 .f32) (harg17 : arg17.IsWhole) (x0 : Vec F S1x2048x768 .f32) (x1 : Vec F S768 .f32) (x2 : Vec F S768 .f32) (x3 : Vec F S768x1536 .bf16) (x4 : Vec F S1536 .f32) (x5 : Vec F S768x1536 .bf16) (x6 : Vec F S1536 .f32) (x7 : Vec F S768x128 .bf16) (x8 : Vec F S128 .f32) (x9 : Vec F S2x128 .f32) (x10 : Vec F S2x128 .f32) (x11 : Vec F S1536x768 .bf16) (x12 : Vec F S768 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12).1
      = [⟨Rect.unit (s := S1x2048x768) ![0, 1536, 0] S1x512x768.size (by decide), outRows x0 x1 x2 x3 x4 x5 x6 x7 x8 x9 x10 x11 x12 arg16.view arg15.view 1536 (by decide)⟩,
         ⟨Rect.unit (s := S1x2048x768) ![0, 1024, 0] S1x512x768.size (by decide), outRows x0 x1 x2 x3 x4 x5 x6 x7 x8 x9 x10 x11 x12 arg16.view arg15.view 1024 (by decide)⟩,
         ⟨Rect.unit (s := S1x2048x768) ![0, 512, 0] S1x512x768.size (by decide), outRows x0 x1 x2 x3 x4 x5 x6 x7 x8 x9 x10 x11 x12 arg16.view arg15.view 512 (by decide)⟩,
         ⟨Rect.unit (s := S1x2048x768) ![0, 0, 0] S1x512x768.size (by decide), outRows x0 x1 x2 x3 x4 x5 x6 x7 x8 x9 x10 x11 x12 arg16.view arg15.view 0 (by decide)⟩] := by
  unfold kernelRun0_A
  dsimp only
  sl_unfold_words
  simp only [View.readCov_cons_toLoadRect, View.readAt_eq_ld, harg1.read_unread, harg2.read_unread, harg3.read_unread,
    harg4.read_unread, harg5.read_unread, harg6.read_unread, harg7.read_unread, harg8.read_unread, harg9.read_unread,
    harg10.read_unread, harg11.read_unread, harg12.read_unread, harg13.read_unread, View.ld_unit_zero (S := S768) hz1, View.ld_unit_zero (S := S1536) hz1, View.ld_unit_zero (S := S128) hz1,
    View.ld_unit_zero (S := S768x1536) hz2, View.ld_unit_zero (S := S768x128) hz2, View.ld_unit_zero (S := S2x128) hz2,
    View.ld_unit_zero (S := S1536x768) hz2]
  rfl

end Cert.KernelIdeal.Pieces

end
-- ==== Proof.Windows.lean ====
/-
  What the body finds in each window's block, in terms of the argument arrays.

  The grid has one point per batch. The input's block at point `t` is batch `t` of `x`; every other window's block is its
  whole array at every point. Six of those arrays are made from the arguments before the region: the value and gate
  weights are the first and the last 1536 rows of `W_hidden`, transposed (the change of float format is the identity on
  the extended reals); their biases the two halves of `b_hidden`; the query/key weights `W_qk` transposed; the output
  weights `W_out` transposed. A load of 512 rows of the input's block reads those rows of the batch.
-/
import proofs.«134153_j60473139527723_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Windows

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The printed index maps over the grid: the input and the output move with the batch, nothing else moves. -/
theorem idx_facts : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 ∧ win0_12.index t (0 : Fin 1) = 0
    ∧ win0_13.index t (0 : Fin 3) = t.val ∧ win0_13.index t (1 : Fin 3) = 0 ∧ win0_13.index t (2 : Fin 3) = 0 :=
  (by decide +kernel : ∀ t : Fin grid0.N, _)

/-! ## The arrays made before the region -/

/-- The value weights at `(d, h)` are `W_hidden` at `(h, d)`. -/
theorem V_v2 (c : Dev nD) (k : S768x1536.Idx) (d : Fin 768) (h : Fin 1536) (hk0 : (k 0).val = d.val) (hk1 : (k 1).val = h.val) :
    (V m c main_v2 : S768x1536.Idx → EReal) k
      = ((m ((c : Thread nD τ).loc main_arg3)) : S3072x768.Idx → EReal) (ix2 (⟨h.val, by have := h.isLt; omega⟩ : Fin 3072) d) := by
  have e : (V m c main_v2 : S768x1536.Idx → EReal)
      = truncf (F := Ideal) .bf16 (transpose S768x1536 [1, 0] (extractStridedSlice S1536x768 ![0, 0] (m ((c : Thread nD τ).loc main_arg3)) slices_S3072x768_S1536x768_0_0)
          transposes_S1536x768_S768x1536_1_0) bitsLt_bf16_f32 := by
    dsimp only [V, hostOps0]; after_results; try rfl
  rw [e]
  refine (truncf_apply (ψ := .bf16) _ bitsLt_bf16_f32 k).trans ?_
  refine (transpose_apply (s := S1536x768) (t := S768x1536) [1, 0] _ transposes_S1536x768_S768x1536_1_0 k (ix2 (⟨h.val, h.isLt⟩ : Fin 1536) d) (fun b => ?_)).trans ?_
  · match b with
    | ⟨0, _⟩ => exact hk0.symm
    | ⟨1, _⟩ => exact hk1.symm
  · refine extractStridedSlice_apply (s := S3072x768) (t := S1536x768) ![0, 0] _ slices_S3072x768_S1536x768_0_0 _ _ (fun a => ?_)
    match a with
    | ⟨0, _⟩ => show h.val = 0 + h.val; omega
    | ⟨1, _⟩ => show d.val = 0 + d.val; omega

/-- The gate weights at `(d, h)` are `W_hidden` at `(1536 + h, d)`. -/
theorem V_v5 (c : Dev nD) (k : S768x1536.Idx) (d : Fin 768) (h : Fin 1536) (hk0 : (k 0).val = d.val) (hk1 : (k 1).val = h.val) :
    (V m c main_v5 : S768x1536.Idx → EReal) k
      = ((m ((c : Thread nD τ).loc main_arg3)) : S3072x768.Idx → EReal) (ix2 (⟨1536 + h.val, by have := h.isLt; omega⟩ : Fin 3072) d) := by
  have e : (V m c main_v5 : S768x1536.Idx → EReal)
      = truncf (F := Ideal) .bf16 (transpose S768x1536 [1, 0] (extractStridedSlice S1536x768 ![1536, 0] (m ((c : Thread nD τ).loc main_arg3)) slices_S3072x768_S1536x768_1536_0)
          transposes_S1536x768_S768x1536_1_0) bitsLt_bf16_f32 := by
    dsimp only [V, hostOps0]; after_results; try rfl
  rw [e]
  refine (truncf_apply (ψ := .bf16) _ bitsLt_bf16_f32 k).trans ?_
  refine (transpose_apply (s := S1536x768) (t := S768x1536) [1, 0] _ transposes_S1536x768_S768x1536_1_0 k (ix2 (⟨h.val, h.isLt⟩ : Fin 1536) d) (fun b => ?_)).trans ?_
  · match b with
    | ⟨0, _⟩ => exact hk0.symm
    | ⟨1, _⟩ => exact hk1.symm
  · refine extractStridedSlice_apply (s := S3072x768) (t := S1536x768) ![1536, 0] _ slices_S3072x768_S1536x768_1536_0 _ _ (fun a => ?_)
    match a with
    | ⟨0, _⟩ => show 1536 + h.val = 1536 + h.val; rfl
    | ⟨1, _⟩ => show d.val = 0 + d.val; omega

/-- The value bias at `h` is `b_hidden` at `h`. -/
theorem V_v6 (c : Dev nD) (k : S1536.Idx) (h : Fin 1536) (hk0 : (k 0).val = h.val) :
    (V m c main_v6 : S1536.Idx → EReal) k = ((m ((c : Thread nD τ).loc main_arg4)) : S3072.Idx → EReal) (ix1 (⟨h.val, by have := h.isLt; omega⟩ : Fin 3072)) := by
  have e : (V m c main_v6 : S1536.Idx → EReal) = extractStridedSlice S1536 ![0] (m ((c : Thread nD τ).loc main_arg4)) slices_S3072_S1536_0 := by
    dsimp only [V, hostOps0]; after_results; try rfl
  rw [e]
  refine extractStridedSlice_apply (s := S3072) (t := S1536) ![0] _ slices_S3072_S1536_0 _ _ (fun a => ?_)
  match a with
  | ⟨0, _⟩ => show h.val = 0 + (k 0).val; omega

/-- The gate bias at `h` is `b_hidden` at `1536 + h`. -/
theorem V_v7 (c : Dev nD) (k : S1536.Idx) (h : Fin 1536) (hk0 : (k 0).val = h.val) :
    (V m c main_v7 : S1536.Idx → EReal) k = ((m ((c : Thread nD τ).loc main_arg4)) : S3072.Idx → EReal) (ix1 (⟨1536 + h.val, by have := h.isLt; omega⟩ : Fin 3072)) := by
  have e : (V m c main_v7 : S1536.Idx → EReal) = extractStridedSlice S1536 ![1536] (m ((c : Thread nD τ).loc main_arg4)) slices_S3072_S1536_1536 := by
    dsimp only [V, hostOps0]; after_results; try rfl
  rw [e]
  refine extractStridedSlice_apply (s := S3072) (t := S1536) ![1536] _ slices_S3072_S1536_1536 _ _ (fun a => ?_)
  match a with
  | ⟨0, _⟩ => show 1536 + h.val = 1536 + (k 0).val; omega

/-- The query/key weights at `(d, e)` are `W_qk` at `(e, d)`. -/
theorem V_v9 (c : Dev nD) (k : S768x128.Idx) (d : Fin 768) (e : Fin 128) (hk0 : (k 0).val = d.val) (hk1 : (k 1).val = e.val) :
    (V m c main_v9 : S768x128.Idx → EReal) k = ((m ((c : Thread nD τ).loc main_arg5)) : S128x768.Idx → EReal) (ix2 e d) := by
  have e' : (V m c main_v9 : S768x128.Idx → EReal)
      = truncf (F := Ideal) .bf16 (transpose S768x128 [1, 0] (m ((c : Thread nD τ).loc main_arg5)) transposes_S128x768_S768x128_1_0) bitsLt_bf16_f32 := by
    dsimp only [V, hostOps0]; after_results; try rfl
  rw [e']
  refine (truncf_apply (ψ := .bf16) _ bitsLt_bf16_f32 k).trans ?_
  refine transpose_apply (s := S128x768) (t := S768x128) [1, 0] _ transposes_S128x768_S768x128_1_0 k (ix2 e d) (fun b => ?_)
  match b with
  | ⟨0, _⟩ => exact hk0.symm
  | ⟨1, _⟩ => exact hk1.symm

/-- The output weights at `(h, d)` are `W_out` at `(d, h)`. -/
theorem V_v11 (c : Dev nD) (k : S1536x768.Idx) (h : Fin 1536) (d : Fin 768) (hk0 : (k 0).val = h.val) (hk1 : (k 1).val = d.val) :
    (V m c main_v11 : S1536x768.Idx → EReal) k = ((m ((c : Thread nD τ).loc main_arg9)) : S768x1536.Idx → EReal) (ix2 d h) := by
  have e : (V m c main_v11 : S1536x768.Idx → EReal)
      = truncf (F := Ideal) .bf16 (transpose S1536x768 [1, 0] (m ((c : Thread nD τ).loc main_arg9)) transposes_S768x1536_S1536x768_1_0) bitsLt_bf16_f32 := by
    dsimp only [V, hostOps0]; after_results; try rfl
  rw [e]
  refine (truncf_apply (ψ := .bf16) _ bitsLt_bf16_f32 k).trans ?_
  refine transpose_apply (s := S768x1536) (t := S1536x768) [1, 0] _ transposes_S768x1536_S1536x768_1_0 k (ix2 d h) (fun b => ?_)
  match b with
  | ⟨0, _⟩ => exact hk0.symm
  | ⟨1, _⟩ => exact hk1.symm

/-! ## The windows' blocks -/

/-- The input's block at point `t` is batch `t` of `x`. -/
theorem iblk0_apply (c : Dev nD) (t : Fin cfg0.N) (bb : Fin 4) (hb : bb.val = t.val) (s : Fin 2048) (d : Fin 768) :
    (iblk m c 0 t : Vec Ideal S1x2048x768 .f32) (ix3 (0 : Fin 1) s d) = ((m ((c : Thread nD τ).loc main_arg0)) : S4x2048x768.Idx → EReal) (ix3 bb s d) := by
  obtain ⟨i00, i01, i02, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = bb.val; rw [i00, hb]; omega
  | ⟨1, _⟩ => show win0_0.index t (1 : Fin 3) * 2048 + 1 * s.val = s.val; rw [i01]; omega
  | ⟨2, _⟩ => show win0_0.index t (2 : Fin 3) * 768 + 1 * d.val = d.val; rw [i02]; omega

/-- The scale of the normalisation is the whole argument at every point. -/
theorem iblk1_eq (c : Dev nD) (t : Fin cfg0.N) :
    (iblk m c 1 t : Vec Ideal S768 .f32) = ((m ((c : Thread nD τ).loc main_arg1)) : S768.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg1 _ = _
  rw [V_main_arg1]
  refine congrArg _ (funext fun a => Fin.ext ?_)
  match a with
  | ⟨0, _⟩ => show win0_1.index t (0 : Fin 1) * 768 + 1 * (j 0).val = (j 0).val; rw [i1]; omega

/-- The shift of the normalisation likewise. -/
theorem iblk2_eq (c : Dev nD) (t : Fin cfg0.N) :
    (iblk m c 2 t : Vec Ideal S768 .f32) = ((m ((c : Thread nD τ).loc main_arg2)) : S768.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg2 _ = _
  rw [V_main_arg2]
  refine congrArg _ (funext fun a => Fin.ext ?_)
  match a with
  | ⟨0, _⟩ => show win0_2.index t (0 : Fin 1) * 768 + 1 * (j 0).val = (j 0).val; rw [i2]; omega

/-- The value weights' block. -/
theorem iblk3_apply (c : Dev nD) (t : Fin cfg0.N) (d : Fin 768) (h : Fin 1536) :
    (iblk m c 3 t : Vec Ideal S768x1536 .bf16) (ix2 d h) = ((m ((c : Thread nD τ).loc main_arg3)) : S3072x768.Idx → EReal) (ix2 (⟨h.val, by have := h.isLt; omega⟩ : Fin 3072) d) := by
  obtain ⟨i00, i01, i02, i1, i2, i30, i31, i4, i50, i51, i6, i70, i71, i8, i90, i91, i100, i101, i110, i111, i12, i130, i131, i132⟩ := idx_facts t
  unfold iblk
  rw [View.read_apply]
  exact V_v2 m c _ d h (by show win0_3.index t (0 : Fin 2) * 768 + 1 * d.val = d.val; rw [i30]; omega) (by show win0_3.index t (1 : Fin 2) * 1536 + 1 * h.val = h.val; rw [i31]; omega)

/-- The value bias' block. -/
theorem iblk4_apply (c : Dev nD) (t : Fin cfg0.N) (h : Fin 1536) :
    (iblk m c 4 t : Vec Ideal S1536 .f32) (ix1 h) = ((m ((c : Thread nD τ).loc main_arg4)) : S3072.Idx → EReal) (ix1 (⟨h.val, by have := h.isLt; omega⟩ : Fin 3072)) := by
  obtain ⟨i00, i01, i02, i1, i2, i30, i31, i4, i50, i51, i6, i70, i71, i8, i90, i91, i100, i101, i110, i111, i12, i130, i131, i132⟩ := idx_facts t
  unfold iblk
  rw [View.read_apply]
  exact V_v6 m c _ h (by show win0_4.index t (0 : Fin 1) * 1536 + 1 * h.val = h.val; rw [i4]; omega)

/-- The gate weights' block. -/
theorem iblk5_apply (c : Dev nD) (t : Fin cfg0.N) (d : Fin 768) (h : Fin 1536) :
    (iblk m c 5 t : Vec Ideal S768x1536 .bf16) (ix2 d h) = ((m ((c : Thread nD τ).loc main_arg3)) : S3072x768.Idx → EReal) (ix2 (⟨1536 + h.val, by have := h.isLt; omega⟩ : Fin 3072) d) := by
  obtain ⟨i00, i01, i02, i1, i2, i30, i31, i4, i50, i51, i6, i70, i71, i8, i90, i91, i100, i101, i110, i111, i12, i130, i131, i132⟩ := idx_facts t
  unfold iblk
  rw [View.read_apply]
  exact V_v5 m c _ d h (by show win0_5.index t (0 : Fin 2) * 768 + 1 * d.val = d.val; rw [i50]; omega) (by show win0_5.index t (1 : Fin 2) * 1536 + 1 * h.val = h.val; rw [i51]; omega)

/-- The gate bias' block. -/
theorem iblk6_apply (c : Dev nD) (t : Fin cfg0.N) (h : Fin 1536) :
    (iblk m c 6 t : Vec Ideal S1536 .f32) (ix1 h) = ((m ((c : Thread nD τ).loc main_arg4)) : S3072.Idx → EReal) (ix1 (⟨1536 + h.val, by have := h.isLt; omega⟩ : Fin 3072)) := by
  obtain ⟨i00, i01, i02, i1, i2, i30, i31, i4, i50, i51, i6, i70, i71, i8, i90, i91, i100, i101, i110, i111, i12, i130, i131, i132⟩ := idx_facts t
  unfold iblk
  rw [View.read_apply]
  exact V_v7 m c _ h (by show win0_6.index t (0 : Fin 1) * 1536 + 1 * h.val = h.val; rw [i6]; omega)

/-- The query/key weights' block. -/
theorem iblk7_apply (c : Dev nD) (t : Fin cfg0.N) (d : Fin 768) (e : Fin 128) :
    (iblk m c 7 t : Vec Ideal S768x128 .bf16) (ix2 d e) = ((m ((c : Thread nD τ).loc main_arg5)) : S128x768.Idx → EReal) (ix2 e d) := by
  obtain ⟨i00, i01, i02, i1, i2, i30, i31, i4, i50, i51, i6, i70, i71, i8, i90, i91, i100, i101, i110, i111, i12, i130, i131, i132⟩ := idx_facts t
  unfold iblk
  rw [View.read_apply]
  exact V_v9 m c _ d e (by show win0_7.index t (0 : Fin 2) * 768 + 1 * d.val = d.val; rw [i70]; omega) (by show win0_7.index t (1 : Fin 2) * 128 + 1 * e.val = e.val; rw [i71]; omega)

/-- The query/key bias. -/
theorem iblk8_eq (c : Dev nD) (t : Fin cfg0.N) :
    (iblk m c 8 t : Vec Ideal S128 .f32) = ((m ((c : Thread nD τ).loc main_arg6)) : S128.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg6 _ = _
  rw [V_main_arg6]
  refine congrArg _ (funext fun a => Fin.ext ?_)
  match a with
  | ⟨0, _⟩ => show win0_8.index t (0 : Fin 1) * 128 + 1 * (j 0).val = (j 0).val; rw [i8]; omega

/-- Gamma. -/
theorem iblk9_eq (c : Dev nD) (t : Fin cfg0.N) :
    (iblk m c 9 t : Vec Ideal S2x128 .f32) = ((m ((c : Thread nD τ).loc main_arg7)) : S2x128.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg7 _ = _
  rw [V_main_arg7]
  refine congrArg _ (funext fun a => Fin.ext ?_)
  match a with
  | ⟨0, _⟩ => show win0_9.index t (0 : Fin 2) * 2 + 1 * (j 0).val = (j 0).val; rw [i90]; omega
  | ⟨1, _⟩ => show win0_9.index t (1 : Fin 2) * 128 + 1 * (j 1).val = (j 1).val; rw [i91]; omega

/-- Beta. -/
theorem iblk10_eq (c : Dev nD) (t : Fin cfg0.N) :
    (iblk m c 10 t : Vec Ideal S2x128 .f32) = ((m ((c : Thread nD τ).loc main_arg8)) : S2x128.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg8 _ = _
  rw [V_main_arg8]
  refine congrArg _ (funext fun a => Fin.ext ?_)
  match a with
  | ⟨0, _⟩ => show win0_10.index t (0 : Fin 2) * 2 + 1 * (j 0).val = (j 0).val; rw [i100]; omega
  | ⟨1, _⟩ => show win0_10.index t (1 : Fin 2) * 128 + 1 * (j 1).val = (j 1).val; rw [i101]; omega

/-- The output weights' block. -/
theorem iblk11_apply (c : Dev nD) (t : Fin cfg0.N) (h : Fin 1536) (d : Fin 768) :
    (iblk m c 11 t : Vec Ideal S1536x768 .bf16) (ix2 h d) = ((m ((c : Thread nD τ).loc main_arg9)) : S768x1536.Idx → EReal) (ix2 d h) := by
  obtain ⟨i00, i01, i02, i1, i2, i30, i31, i4, i50, i51, i6, i70, i71, i8, i90, i91, i100, i101, i110, i111, i12, i130, i131, i132⟩ := idx_facts t
  unfold iblk
  rw [View.read_apply]
  exact V_v11 m c _ h d (by show win0_11.index t (0 : Fin 2) * 1536 + 1 * h.val = h.val; rw [i110]; omega) (by show win0_11.index t (1 : Fin 2) * 768 + 1 * d.val = d.val; rw [i111]; omega)

/-- The output bias. -/
theorem iblk12_eq (c : Dev nD) (t : Fin cfg0.N) :
    (iblk m c 12 t : Vec Ideal S768 .f32) = ((m ((c : Thread nD τ).loc main_arg10)) : S768.Idx → EReal) := by
  obtain ⟨i00, i01, i02, i1, i2, i30, i31, i4, i50, i51, i6, i70, i71, i8, i90, i91, i100, i101, i110, i111, i12, i130, i131, i132⟩ := idx_facts t
  funext j
  unfold iblk
  rw [View.read_apply]
  show V m c main_arg10 _ = _
  rw [V_main_arg10]
  refine congrArg _ (funext fun a => Fin.ext ?_)
  match a with
  | ⟨0, _⟩ => show win0_12.index t (0 : Fin 1) * 768 + 1 * (j 0).val = (j 0).val; rw [i12]; omega

/-- A load of 512 rows from row `o` of a batch's block reads those rows. -/
theorem rows_apply (x0 : Vec Ideal S1x2048x768 .f32) (o : Nat)
    (h : ∀ a, (![0, o, 0] : Fin 3 → Nat) a + S1x512x768.size a ≤ S1x2048x768.size a) (r : Fin 512) (d : Fin 768)
    (s : Fin 2048) (hs : s.val = o + r.val) :
    View.ld x0 (Rect.unit (s := S1x2048x768) ![0, o, 0] S1x512x768.size h) (ix3 (0 : Fin 1) r d) = x0 (ix3 (0 : Fin 1) s d) := by
  show x0 _ = x0 _
  refine congrArg x0 (funext fun a => Fin.ext ?_)
  match a with
  | ⟨0, _⟩ => show 0 + 1 * 0 = 0; rfl
  | ⟨1, _⟩ => show o + 1 * r.val = s.val; omega
  | ⟨2, _⟩ => show 0 + 1 * d.val = d.val; omega

end Cert.KernelIdeal.Windows

end
-- ==== Proof.Spec.lean ====
/-
  The gated attention unit as ONE function of the argument arrays, index by index, on the extended reals.

  For a batch `b`, a sequence position `s` and a model coordinate `d`:
  * a row is normalised: `nrm = (x - mean) * rsqrt (var + eps) * ln_w + ln_b`, the mean and the variance being the
    row's sum and the row's sum of squared deviations, each divided by 768;
  * `hid = silu (nrm · W_hiddenᵀ + b_hidden)` (3072 columns: the first 1536 are the values `v`, the last 1536 the gate),
    `zz = silu (nrm · W_qkᵀ + b_qk)`, the query `qq = zz * gamma₀ + beta₀` and the key `kk = zz * gamma₁ + beta₁`;
  * the attention weight of position `j` for position `i` is `att = (max (q_i · k_j * 2⁻¹¹) 0)²`;
  * `av = ∑ j, att i j * v j`, gated: `av * gate`; projected by `W_outᵀ`, plus `b_out`, plus the residual `x`.
  `silu y = y * logistic y`. The float words (768, eps, 2⁻¹¹, 0) are kept as the words both programs spell.
  Also here: a sum over 2048 positions is the sum of its four consecutive blocks of 512, accumulated from zero.
-/
import Idealize.ShloMosaic.PureOps.Ideal
import Idealize.ShloMosaic.PureOps.Ideal.Laws
import Idealize.ShloMosaic.Lib.ValueIdx

noncomputable section

namespace Cert.GauSpec

open Idealize.ShloMosaic Idealize.ShloMosaic.ValueIdx
open scoped BigOperators

abbrev TX : Shape := ⟨3, ![4, 2048, 768]⟩
abbrev T768 : Shape := ⟨1, ![768]⟩
abbrev TWh : Shape := ⟨2, ![3072, 768]⟩
abbrev T3072 : Shape := ⟨1, ![3072]⟩
abbrev TWqk : Shape := ⟨2, ![128, 768]⟩
abbrev T128 : Shape := ⟨1, ![128]⟩
abbrev TG : Shape := ⟨2, ![2, 128]⟩
abbrev TWo : Shape := ⟨2, ![768, 1536]⟩

/-- The word `768.0`. -/
def c768 : EReal := Ideal.ofBits .f32 0x44400000#32
/-- The word of the normalisation's epsilon. -/
def ceps : EReal := Ideal.ofBits .f32 0x3727C5AC#32
/-- The word `2⁻¹¹ = 1/2048`. -/
def cinv : EReal := Ideal.ofBits .f32 0x3A000000#32
/-- The word `+0.0`. -/
def czero : EReal := Ideal.ofBits .f32 0x00000000#32

/-- `silu y = y * logistic y`. -/
def silu (y : EReal) : EReal := y * Ideal.logistic y

section
variable (X : TX.Idx → EReal) (lw lb : T768.Idx → EReal) (Wh : TWh.Idx → EReal) (bh : T3072.Idx → EReal)
  (Wqk : TWqk.Idx → EReal) (bqk : T128.Idx → EReal) (gam bet : TG.Idx → EReal) (Wo : TWo.Idx → EReal)
  (bo : T768.Idx → EReal)

/-- A row's mean. -/
def mean (b : Fin 4) (s : Fin 2048) : EReal := Ideal.div (∑ k : Fin 768, X (ix3 b s k)) c768
/-- The deviation from the row's mean. -/
def cen (b : Fin 4) (s : Fin 2048) (d : Fin 768) : EReal := X (ix3 b s d) - mean X b s
/-- A row's variance. -/
def var (b : Fin 4) (s : Fin 2048) : EReal := Ideal.div (∑ k : Fin 768, cen X b s k * cen X b s k) c768
/-- The normalised row. -/
def nrm (b : Fin 4) (s : Fin 2048) (d : Fin 768) : EReal :=
  cen X b s d * Ideal.rsqrt (var X b s + ceps) * lw (ix1 d) + lb (ix1 d)
/-- The hidden projection, values and gate side by side. -/
def hid (b : Fin 4) (s : Fin 2048) (h : Fin 3072) : EReal :=
  silu ((∑ k : Fin 768, nrm X lw lb b s k * Wh (ix2 h k)) + bh (ix1 h))
/-- The shared query/key projection. -/
def zz (b : Fin 4) (s : Fin 2048) (e : Fin 128) : EReal :=
  silu ((∑ k : Fin 768, nrm X lw lb b s k * Wqk (ix2 e k)) + bqk (ix1 e))
/-- The query. -/
def qq (b : Fin 4) (s : Fin 2048) (e : Fin 128) : EReal :=
  zz X lw lb Wqk bqk b s e * gam (ix2 (0 : Fin 2) e) + bet (ix2 (0 : Fin 2) e)
/-- The key. -/
def kk (b : Fin 4) (s : Fin 2048) (e : Fin 128) : EReal :=
  zz X lw lb Wqk bqk b s e * gam (ix2 (1 : Fin 2) e) + bet (ix2 (1 : Fin 2) e)
/-- The squared rectified scaled similarity of positions `i` and `j`. -/
def att (b : Fin 4) (i j : Fin 2048) : EReal :=
  max ((∑ e : Fin 128, qq X lw lb Wqk bqk gam bet b i e * kk X lw lb Wqk bqk gam bet b j e) * cinv) czero
    * max ((∑ e : Fin 128, qq X lw lb Wqk bqk gam bet b i e * kk X lw lb Wqk bqk gam bet b j e) * cinv) czero
/-- The value column `h` at position `j`. -/
def vv (b : Fin 4) (j : Fin 2048) (h : Fin 1536) : EReal :=
  hid X lw lb Wh bh b j ⟨h.val, by have := h.isLt; omega⟩
/-- The gate column `h` at position `i`. -/
def gate (b : Fin 4) (i : Fin 2048) (h : Fin 1536) : EReal :=
  hid X lw lb Wh bh b i ⟨1536 + h.val, by have := h.isLt; omega⟩
/-- The attention-weighted values. -/
def av (b : Fin 4) (i : Fin 2048) (h : Fin 1536) : EReal :=
  ∑ j : Fin 2048, att X lw lb Wqk bqk gam bet b i j * vv X lw lb Wh bh b j h
/-- The unit's output. -/
def out (b : Fin 4) (i : Fin 2048) (d : Fin 768) : EReal :=
  ((∑ h : Fin 1536, (av X lw lb Wh bh Wqk bqk gam bet b i h * gate X lw lb Wh bh b i h) * Wo (ix2 d h))
      + bo (ix1 d)) + X (ix3 b i d)

/-- The output as an array. -/
def G : TX.Idx → EReal := fun i => out X lw lb Wh bh Wqk bqk gam bet Wo bo (i 0) (i 1) (i 2)

end

/-- Position `512 * q + r` of the sequence. -/
def pos (q : Fin 4) (r : Fin 512) : Fin 2048 := ⟨512 * q.val + r.val, by have := q.isLt; have := r.isLt; omega⟩

/-- A sum over the 2048 positions is the sum of its four blocks of 512, accumulated in order from zero. -/
theorem sum_blocks (f : Fin 2048 → EReal) :
    ∑ j : Fin 2048, f j
      = ((((0 + ∑ r : Fin 512, f (pos 0 r)) + ∑ r : Fin 512, f (pos 1 r)) + ∑ r : Fin 512, f (pos 2 r))
          + ∑ r : Fin 512, f (pos 3 r)) := by
  have e : ∑ j : Fin 2048, f j = ∑ p : Fin 4 × Fin 512, f (pos p.1 p.2) := by
    refine (Fintype.sum_equiv (finProdFinEquiv (m := 4) (n := 512)) (fun p => f (pos p.1 p.2)) f fun p => ?_).symm
    refine congrArg f (Fin.ext ?_)
    simp [pos, finProdFinEquiv, Nat.add_comm, Nat.mul_comm]
  rw [e, Fintype.sum_prod_type, Fin.sum_univ_four, zero_add]

end Cert.GauSpec

end
-- ==== Proof.TileProj.lean ====
/-
  The projections of one 512-row tile, read entry by entry on the extended reals.

  A tile of the body is normalised row by row and then multiplied by weight blocks; each of these vector terms,
  read at a row `r` and a column, is the corresponding entry of the specification at sequence position `512 k + r`:
  the normalised row (`lnT_apply`, `ln39_apply`), the value and gate columns (`vT_apply`, `gT_apply`), and the key and
  query (`kT_apply`, `qT_apply`). The auxiliary namespace first reads each layout operation, the lane sum and the two
  products at explicit coordinates, then the normalisation stage by stage.
-/
import proofs.«134153_j60473139527723_2_alg».proof.Proof.Tile
import proofs.«134153_j60473139527723_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileRead

open Cert.KernelIdeal Cert.KernelIdeal.Gen Cert.KernelIdeal.Tile Cert.GauSpec
open Idealize.ShloMosaic Idealize.ShloMosaic.ValueIdx
open scoped BigOperators

namespace TileProj

/-! ### Layout operations at explicit coordinates -/

section Layout
variable {α : Type}

/-- A column vector made from a vector: entry `(r, u)` of the `[a, 1]` cast is entry `r`. -/
theorem cast_col_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column broadcast along the rows: entry `(r, c)` of the `[a, b]` broadcast of an `[a, 1]` column is the column's entry `r`. -/
theorem bcast_col_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A vector laid as one row and repeated down the rows: entry `(r, c)` is the vector's entry `c`. -/
theorem bcast_row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ v h1) h2 (ix2 r c) = v (ix1 c) :=
  (broadcastTo_1b_ab_apply _ h2 r c).trans (shapeCast_a_1a_apply v h1 0 c)

end Layout

/-! ### The lane sum and the two products at explicit coordinates -/

/-- The sum along the lanes of a `512 × 768` tile, at row `r`, is the sum of that row's entries. -/
theorem lane_sum_apply (v : FVec Ideal S512x768 .f32) (r : Fin 512) :
    multiReduction (F := Ideal) .add [1] S512 v 0x00000000#32 reduces_S512x768_S512 (.inl rfl) rfl (ix1 r)
      = ∑ k : Fin 768, v (ix2 r k) := by
  refine (Ideal.multiReduction_add_single v 0x00000000#32 reduces_S512x768_S512 (.inl rfl) rfl (ix1 r)).trans ?_
  refine Finset.sum_congr rfl fun k _ => congrArg v (funext fun a => Fin.ext ?_)
  match a with
  | ⟨0, _⟩ => rfl
  | ⟨1, _⟩ => rfl

/-- The left operand's index of the product `mm1536` keeps the output's row … -/
theorem mm1536_lhs0 (i : S512x1536.Idx) (q : dot_S512x768_S768x1536_S512x1536_1_0_0_1_n_n.contr.Idx) : (dot_S512x768_S768x1536_S512x1536_1_0_0_1_n_n.lhsIdx i q 0).val = (i 0).val := by
  unfold DotDims.lhsIdx
  rw [dif_neg (show ¬(0 : Fin S512x768.rank) ∈ dot_S512x768_S768x1536_S512x1536_1_0_0_1_n_n.lhsBatch by decide),
    dif_pos (show (0 : Fin S512x768.rank) ∈ dot_S512x768_S768x1536_S512x1536_1_0_0_1_n_n.lhsNonContracting by decide)]
  rfl
/-- … and the right operand's keeps the output's column. -/
theorem mm1536_rhs1 (i : S512x1536.Idx) (q : dot_S512x768_S768x1536_S512x1536_1_0_0_1_n_n.contr.Idx) : (dot_S512x768_S768x1536_S512x1536_1_0_0_1_n_n.rhsIdx i q 1).val = (i 1).val := by
  unfold DotDims.rhsIdx
  rw [dif_neg (show ¬(1 : Fin S768x1536.rank) ∈ dot_S512x768_S768x1536_S512x1536_1_0_0_1_n_n.rhsBatch by decide),
    dif_pos (show (1 : Fin S768x1536.rank) ∈ dot_S512x768_S768x1536_S512x1536_1_0_0_1_n_n.rhsNonContracting by decide)]
  rfl

/-- The product of a `512 × 768` tile with a `768 × 1536` matrix, accumulated from zero, at `(r, c)`:
    the sum over the 768 shared coordinates of the products of the entries. -/
theorem mm1536_apply (n : FVec Ideal S512x768 .bf16) (w : FVec Ideal S768x1536 .bf16) (r : Fin 512) (c : Fin 1536) :
    matmul (F := Ideal) dot_S512x768_S768x1536_S512x1536_1_0_0_1_n_n none n w (constant S512x1536 .f32 0x00000000#32) (ix2 r c)
      = ∑ k : Fin 768, n (ix2 r k) * w (ix2 k c) := by
  refine (Ideal.matmul_constant_zero_apply dot_S512x768_S768x1536_S512x1536_1_0_0_1_n_n none n w (ix2 r c)).trans ?_
  rw [← Equiv.sum_comp (contrEquiv1 dot_S512x768_S768x1536_S512x1536_1_0_0_1_n_n 768 rfl rfl).symm]
  refine Finset.sum_congr rfl fun k _ => ?_
  have hk := contrEquiv1_symm_val dot_S512x768_S768x1536_S512x1536_1_0_0_1_n_n 768 rfl rfl k
  have el : dot_S512x768_S768x1536_S512x1536_1_0_0_1_n_n.lhsIdx (ix2 r c) ((contrEquiv1 dot_S512x768_S768x1536_S512x1536_1_0_0_1_n_n 768 rfl rfl).symm k) = ix2 r k :=
    funext fun a => Fin.ext (by
      match a with
      | ⟨0, _⟩ => exact mm1536_lhs0 _ _
      | ⟨1, _⟩ => exact (dot_S512x768_S768x1536_S512x1536_1_0_0_1_n_n.lhsIdx_val_of_single rfl _ _).trans hk)
  have er : dot_S512x768_S768x1536_S512x1536_1_0_0_1_n_n.rhsIdx (ix2 r c) ((contrEquiv1 dot_S512x768_S768x1536_S512x1536_1_0_0_1_n_n 768 rfl rfl).symm k) = ix2 k c :=
    funext fun a => Fin.ext (by
      match a with
      | ⟨0, _⟩ => exact (dot_S512x768_S768x1536_S512x1536_1_0_0_1_n_n.rhsIdx_val_of_single rfl _ _).trans hk
      | ⟨1, _⟩ => exact mm1536_rhs1 _ _)
  rw [el, er]

/-- The left operand's index of the product `mm128` keeps the output's row … -/
theorem mm128_lhs0 (i : S512x128.Idx) (q : dot_S512x768_S768x128_S512x128_1_0_0_1_n_n.contr.Idx) : (dot_S512x768_S768x128_S512x128_1_0_0_1_n_n.lhsIdx i q 0).val = (i 0).val := by
  unfold DotDims.lhsIdx
  rw [dif_neg (show ¬(0 : Fin S512x768.rank) ∈ dot_S512x768_S768x128_S512x128_1_0_0_1_n_n.lhsBatch by decide),
    dif_pos (show (0 : Fin S512x768.rank) ∈ dot_S512x768_S768x128_S512x128_1_0_0_1_n_n.lhsNonContracting by decide)]
  rfl
/-- … and the right operand's keeps the output's column. -/
theorem mm128_rhs1 (i : S512x128.Idx) (q : dot_S512x768_S768x128_S512x128_1_0_0_1_n_n.contr.Idx) : (dot_S512x768_S768x128_S512x128_1_0_0_1_n_n.rhsIdx i q 1).val = (i 1).val := by
  unfold DotDims.rhsIdx
  rw [dif_neg (show ¬(1 : Fin S768x128.rank) ∈ dot_S512x768_S768x128_S512x128_1_0_0_1_n_n.rhsBatch by decide),
    dif_pos (show (1 : Fin S768x128.rank) ∈ dot_S512x768_S768x128_S512x128_1_0_0_1_n_n.rhsNonContracting by decide)]
  rfl

/-- The product of a `512 × 768` tile with a `768 × 128` matrix, accumulated from zero, at `(r, c)`:
    the sum over the 768 shared coordinates of the products of the entries. -/
theorem mm128_apply (n : FVec Ideal S512x768 .bf16) (w : FVec Ideal S768x128 .bf16) (r : Fin 512) (c : Fin 128) :
    matmul (F := Ideal) dot_S512x768_S768x128_S512x128_1_0_0_1_n_n none n w (constant S512x128 .f32 0x00000000#32) (ix2 r c)
      = ∑ k : Fin 768, n (ix2 r k) * w (ix2 k c) := by
  refine (Ideal.matmul_constant_zero_apply dot_S512x768_S768x128_S512x128_1_0_0_1_n_n none n w (ix2 r c)).trans ?_
  rw [← Equiv.sum_comp (contrEquiv1 dot_S512x768_S768x128_S512x128_1_0_0_1_n_n 768 rfl rfl).symm]
  refine Finset.sum_congr rfl fun k _ => ?_
  have hk := contrEquiv1_symm_val dot_S512x768_S768x128_S512x128_1_0_0_1_n_n 768 rfl rfl k
  have el : dot_S512x768_S768x128_S512x128_1_0_0_1_n_n.lhsIdx (ix2 r c) ((contrEquiv1 dot_S512x768_S768x128_S512x128_1_0_0_1_n_n 768 rfl rfl).symm k) = ix2 r k :=
    funext fun a => Fin.ext (by
      match a with
      | ⟨0, _⟩ => exact mm128_lhs0 _ _
      | ⟨1, _⟩ => exact (dot_S512x768_S768x128_S512x128_1_0_0_1_n_n.lhsIdx_val_of_single rfl _ _).trans hk)
  have er : dot_S512x768_S768x128_S512x128_1_0_0_1_n_n.rhsIdx (ix2 r c) ((contrEquiv1 dot_S512x768_S768x128_S512x128_1_0_0_1_n_n 768 rfl rfl).symm k) = ix2 k c :=
    funext fun a => Fin.ext (by
      match a with
      | ⟨0, _⟩ => exact (dot_S512x768_S768x128_S512x128_1_0_0_1_n_n.rhsIdx_val_of_single rfl _ _).trans hk
      | ⟨1, _⟩ => exact mm128_rhs1 _ _)
  rw [el, er]

/-! ### The normalisation of a `512 × 768` tile, stage by stage -/

/-- The column of row sums divided by the word `768`. -/
def meanV (y : FVec Ideal S512x768 .f32) : FVec Ideal S512x1 .f32 :=
  divf (shapeCast S512x1 (multiReduction (F := Ideal) .add [1] S512 y 0x00000000#32 reduces_S512x768_S512 (.inl rfl) rfl)
      shapeCasts_S512_S512x1)
    (broadcast S512x1 (Scalar.ofBits (F := Ideal) .f32 0x44400000#32))

theorem meanV_apply (y : FVec Ideal S512x768 .f32) (r : Fin 512) (u : Fin 1) :
    meanV y (ix2 r u) = Ideal.div (∑ k : Fin 768, y (ix2 r k)) c768 :=
  congrArg (fun t => Ideal.div t c768) ((cast_col_apply _ shapeCasts_S512_S512x1 r u).trans (lane_sum_apply y r))

/-- The tile minus its rows' means. -/
def cenV (y : FVec Ideal S512x768 .f32) : FVec Ideal S512x768 .f32 :=
  subf y (broadcastTo S512x768 (meanV y) broadcasts_S512x1_S512x768)

theorem cenV_apply (y : FVec Ideal S512x768 .f32) (r : Fin 512) (d : Fin 768) :
    cenV y (ix2 r d) = y (ix2 r d) - Ideal.div (∑ k : Fin 768, y (ix2 r k)) c768 :=
  congrArg (fun t => y (ix2 r d) - t) ((bcast_col_apply _ broadcasts_S512x1_S512x768 r d).trans (meanV_apply y r 0))

/-- The column of reciprocal square roots of the rows' variances plus epsilon. -/
def rstdV (y : FVec Ideal S512x768 .f32) : FVec Ideal S512x1 .f32 :=
  rsqrt (addf (meanV (mulf (cenV y) (cenV y))) (broadcast S512x1 (Scalar.ofBits (F := Ideal) .f32 0x3727C5AC#32)))

theorem rstdV_apply (y : FVec Ideal S512x768 .f32) (r : Fin 512) (u : Fin 1) :
    rstdV y (ix2 r u)
      = Ideal.rsqrt (Ideal.div (∑ k : Fin 768, cenV y (ix2 r k) * cenV y (ix2 r k)) c768 + ceps) :=
  congrArg (fun t => Ideal.rsqrt (t + ceps)) (meanV_apply (mulf (cenV y) (cenV y)) r u)

/-- The normalised tile: centred, scaled by the reciprocal deviation, by the weight row, plus the bias row. -/
def lnBody (lw lb : Vec Ideal S768 .f32) (y : FVec Ideal S512x768 .f32) : FVec Ideal S512x768 .bf16 :=
  truncf .bf16
    (addf
      (mulf (mulf (cenV y) (broadcastTo S512x768 (rstdV y) broadcasts_S512x1_S512x768))
        (broadcastTo S512x768 (shapeCast S1x768 lw shapeCasts_S768_S1x768) broadcasts_S1x768_S512x768))
      (broadcastTo S512x768 (shapeCast S1x768 lb shapeCasts_S768_S1x768) broadcasts_S1x768_S512x768))
    bitsLt_bf16_f32

theorem lnBody_apply (lw lb : Vec Ideal S768 .f32) (y : FVec Ideal S512x768 .f32) (r : Fin 512) (d : Fin 768) :
    lnBody lw lb y (ix2 r d) = cenV y (ix2 r d) * rstdV y (ix2 r (0 : Fin 1)) * lw (ix1 d) + lb (ix1 d) := by
  show cenV y (ix2 r d) * broadcastTo S512x768 (rstdV y) broadcasts_S512x1_S512x768 (ix2 r d)
        * broadcastTo S512x768 (shapeCast S1x768 lw shapeCasts_S768_S1x768) broadcasts_S1x768_S512x768 (ix2 r d)
      + broadcastTo S512x768 (shapeCast S1x768 lb shapeCasts_S768_S1x768) broadcasts_S1x768_S512x768 (ix2 r d) = _
  rw [bcast_col_apply, bcast_row_apply, bcast_row_apply]

/-- The body's first spelling of the normalisation is `lnBody` of the tile with its unit axis dropped … -/
theorem pay4_eq (lw lb : Vec Ideal S768 .f32) (x : Vec Ideal S1x512x768 .f32) :
    k0_pay4 (F := Ideal) lw lb x = lnBody lw lb (shapeCast S512x768 x shapeCasts_S1x512x768_S512x768) := rfl

/-- … and so is its second. -/
theorem pay39_eq (lw lb : Vec Ideal S768 .f32) (x : Vec Ideal S1x512x768 .f32) :
    k0_pay39 (F := Ideal) lw lb x = lnBody lw lb (shapeCast S512x768 x shapeCasts_S1x512x768_S512x768) := rfl

/-- `lnBody` of a tile whose row `r` is row `s r` of batch `b` of `X` is the normalised row. -/
theorem lnBody_eq_nrm (X : TX.Idx → EReal) (lw lb : Vec Ideal S768 .f32) (b : Fin 4) (s : Fin 512 → Fin 2048)
    (y : FVec Ideal S512x768 .f32) (hy : ∀ (r : Fin 512) (d : Fin 768), y (ix2 r d) = X (ix3 b (s r) d))
    (r : Fin 512) (d : Fin 768) : lnBody lw lb y (ix2 r d) = nrm X lw lb b (s r) d := by
  have hc : ∀ d' : Fin 768, cenV y (ix2 r d') = cen X b (s r) d' := fun d' => by
    rw [cenV_apply, hy r d']
    exact congrArg (fun t => X (ix3 b (s r) d') - Ideal.div t c768) (Finset.sum_congr rfl fun k' _ => hy r k')
  have hr : rstdV y (ix2 r (0 : Fin 1)) = Ideal.rsqrt (var X b (s r) + ceps) := by
    rw [rstdV_apply]
    exact congrArg (fun t => Ideal.rsqrt (Ideal.div t c768 + ceps))
      (Finset.sum_congr rfl fun k' _ => by rw [hc k'])
  rw [lnBody_apply, hc d, hr]
  rfl

/-! ### The projections -/

section Row
variable {α : Type}

/-- Row `q` of a `[2, 128]` array, cut out, flattened, laid as a row again and repeated down 512 rows: entry `(r, e)` is the array's `(q, e)`. -/
theorem row_of_pair_apply (o : ℕ) (g : S2x128.Idx → α) (hs : S2x128.Slices ![o, 0] S1x128) (h1 : S1x128.ShapeCasts S128)
    (h2 : S128.ShapeCasts S1x128) (h3 : S1x128.Broadcasts S512x128) (q : Fin 2) (hq : q.val = o) (r : Fin 512) (e : Fin 128) :
    broadcastTo S512x128 (shapeCast S1x128 (shapeCast S128 (extractStridedSlice S1x128 ![o, 0] g hs) h1) h2) h3 (ix2 r e)
      = g (ix2 q e) :=
  (bcast_row_apply _ h2 h3 r e).trans
    ((shapeCast_1a_a_apply _ h1 e).trans (slice2_axis0_apply o g hs (0 : Fin 1) e q (by rw [hq]; rfl)))

end Row

/-- The hidden pre-activation of a tile: the normalised tile times a `768 × 1536` weight block plus a bias row. -/
def hidBody (bias : FVec Ideal S1536 .f32) (n : FVec Ideal S512x768 .bf16) (w : FVec Ideal S768x1536 .bf16) :
    FVec Ideal S512x1536 .f32 :=
  addf
    (matmul (F := Ideal) dot_S512x768_S768x1536_S512x1536_1_0_0_1_n_n none n
      (shapeCast S768x1536 w shapeCasts_S768x1536_S768x1536) (constant S512x1536 .f32 0x00000000#32))
    (broadcastTo S512x1536 (shapeCast S1x1536 bias shapeCasts_S1536_S1x1536) broadcasts_S1x1536_S512x1536)

theorem hidBody_apply (bias : FVec Ideal S1536 .f32) (n : FVec Ideal S512x768 .bf16) (w : FVec Ideal S768x1536 .bf16)
    (r : Fin 512) (h : Fin 1536) :
    hidBody bias n w (ix2 r h) = (∑ k : Fin 768, n (ix2 r k) * w (ix2 k h)) + bias (ix1 h) := by
  show matmul (F := Ideal) dot_S512x768_S768x1536_S512x1536_1_0_0_1_n_n none n
        (shapeCast S768x1536 w shapeCasts_S768x1536_S768x1536) (constant S512x1536 .f32 0x00000000#32) (ix2 r h)
      + broadcastTo S512x1536 (shapeCast S1x1536 bias shapeCasts_S1536_S1x1536) broadcasts_S1x1536_S512x1536 (ix2 r h) = _
  rw [shapeCast_self, mm1536_apply, bcast_row_apply]

/-- The value projection at `(r, h)`: `silu` of the pre-activation (the trailing cast keeps the shape). -/
theorem pay5_apply (bias : FVec Ideal S1536 .f32) (n : FVec Ideal S512x768 .bf16) (w : FVec Ideal S768x1536 .bf16)
    (r : Fin 512) (h : Fin 1536) :
    k0_pay5 (F := Ideal) bias n w (ix2 r h) = silu ((∑ k : Fin 768, n (ix2 r k) * w (ix2 k h)) + bias (ix1 h)) := by
  have e : k0_pay5 (F := Ideal) bias n w
      = truncf .bf16 (mulf (hidBody bias n w) (logistic (hidBody bias n w))) bitsLt_bf16_f32 :=
    shapeCast_self _ shapeCasts_S512x1536_S512x1536
  rw [e]
  show hidBody bias n w (ix2 r h) * Ideal.logistic (hidBody bias n w (ix2 r h)) = _
  rw [hidBody_apply]
  rfl

/-- The gate projection at `(r, h)` likewise. -/
theorem pay41_apply (bias : FVec Ideal S1536 .f32) (n : FVec Ideal S512x768 .bf16) (w : FVec Ideal S768x1536 .bf16)
    (r : Fin 512) (h : Fin 1536) :
    k0_pay41 (F := Ideal) bias n w (ix2 r h) = silu ((∑ k : Fin 768, n (ix2 r k) * w (ix2 k h)) + bias (ix1 h)) := by
  show hidBody bias n w (ix2 r h) * Ideal.logistic (hidBody bias n w (ix2 r h)) = _
  rw [hidBody_apply]
  rfl

/-- The shared query/key pre-activation of a tile. -/
def zBody (bias : Vec Ideal S128 .f32) (n : FVec Ideal S512x768 .bf16) (w : FVec Ideal S768x128 .bf16) :
    FVec Ideal S512x128 .f32 :=
  addf
    (matmul (F := Ideal) dot_S512x768_S768x128_S512x128_1_0_0_1_n_n none n
      (shapeCast S768x128 w shapeCasts_S768x128_S768x128) (constant S512x128 .f32 0x00000000#32))
    (broadcastTo S512x128 (shapeCast S1x128 bias shapeCasts_S128_S1x128) broadcasts_S1x128_S512x128)

theorem zBody_apply (bias : Vec Ideal S128 .f32) (n : FVec Ideal S512x768 .bf16) (w : FVec Ideal S768x128 .bf16)
    (r : Fin 512) (e : Fin 128) :
    zBody bias n w (ix2 r e) = (∑ k : Fin 768, n (ix2 r k) * w (ix2 k e)) + bias (ix1 e) := by
  show matmul (F := Ideal) dot_S512x768_S768x128_S512x128_1_0_0_1_n_n none n
        (shapeCast S768x128 w shapeCasts_S768x128_S768x128) (constant S512x128 .f32 0x00000000#32) (ix2 r e)
      + broadcastTo S512x128 (shapeCast S1x128 bias shapeCasts_S128_S1x128) broadcasts_S1x128_S512x128 (ix2 r e) = _
  rw [shapeCast_self, mm128_apply, bcast_row_apply]

/-- The key projection at `(r, e)`: `silu` of the pre-activation, scaled and shifted by row 1 of the two `[2, 128]` arrays. -/
theorem pay6_apply (gam bet : Vec Ideal S2x128 .f32) (bias : Vec Ideal S128 .f32) (n : FVec Ideal S512x768 .bf16)
    (w : FVec Ideal S768x128 .bf16) (r : Fin 512) (e : Fin 128) :
    k0_pay6 (F := Ideal) gam bet bias n w (ix2 r e)
      = silu ((∑ k : Fin 768, n (ix2 r k) * w (ix2 k e)) + bias (ix1 e)) * gam (ix2 (1 : Fin 2) e) + bet (ix2 (1 : Fin 2) e) := by
  have e0 : k0_pay6 (F := Ideal) gam bet bias n w
      = truncf .bf16
          (addf
            (mulf (mulf (zBody bias n w) (logistic (zBody bias n w)))
              (broadcastTo S512x128 (shapeCast S1x128 (shapeCast S128
                (extractStridedSlice S1x128 ![1, 0] gam slices_S2x128_o1_0_S1x128) shapeCasts_S1x128_S128) shapeCasts_S128_S1x128)
                broadcasts_S1x128_S512x128))
            (broadcastTo S512x128 (shapeCast S1x128 (shapeCast S128
              (extractStridedSlice S1x128 ![1, 0] bet slices_S2x128_o1_0_S1x128) shapeCasts_S1x128_S128) shapeCasts_S128_S1x128)
              broadcasts_S1x128_S512x128))
          bitsLt_bf16_f32 :=
    shapeCast_self _ shapeCasts_S512x128_S512x128
  rw [e0]
  show zBody bias n w (ix2 r e) * Ideal.logistic (zBody bias n w (ix2 r e))
        * broadcastTo S512x128 (shapeCast S1x128 (shapeCast S128
            (extractStridedSlice S1x128 ![1, 0] gam slices_S2x128_o1_0_S1x128) shapeCasts_S1x128_S128) shapeCasts_S128_S1x128)
            broadcasts_S1x128_S512x128 (ix2 r e)
      + broadcastTo S512x128 (shapeCast S1x128 (shapeCast S128
            (extractStridedSlice S1x128 ![1, 0] bet slices_S2x128_o1_0_S1x128) shapeCasts_S1x128_S128) shapeCasts_S128_S1x128)
            broadcasts_S1x128_S512x128 (ix2 r e) = _
  rw [row_of_pair_apply 1 gam _ _ _ _ (1 : Fin 2) rfl r e, row_of_pair_apply 1 bet _ _ _ _ (1 : Fin 2) rfl r e, zBody_apply]
  rfl

/-- The query projection at `(r, e)`: the same over the second spelling of the normalisation, with row 0. -/
theorem pay40_apply (lw lb : Vec Ideal S768 .f32) (gam bet : Vec Ideal S2x128 .f32) (bias : Vec Ideal S128 .f32)
    (x : Vec Ideal S1x512x768 .f32) (w : FVec Ideal S768x128 .bf16) (r : Fin 512) (e : Fin 128) :
    k0_pay40 (F := Ideal) lw lb gam bet bias x w (ix2 r e)
      = silu ((∑ k : Fin 768, k0_pay39 (F := Ideal) lw lb x (ix2 r k) * w (ix2 k e)) + bias (ix1 e)) * gam (ix2 (0 : Fin 2) e)
          + bet (ix2 (0 : Fin 2) e) := by
  show zBody bias (k0_pay39 (F := Ideal) lw lb x) w (ix2 r e) * Ideal.logistic (zBody bias (k0_pay39 (F := Ideal) lw lb x) w (ix2 r e))
        * broadcastTo S512x128 (shapeCast S1x128 (shapeCast S128
            (extractStridedSlice S1x128 ![0, 0] gam slices_S2x128_o0_0_S1x128) shapeCasts_S1x128_S128) shapeCasts_S128_S1x128)
            broadcasts_S1x128_S512x128 (ix2 r e)
      + broadcastTo S512x128 (shapeCast S1x128 (shapeCast S128
            (extractStridedSlice S1x128 ![0, 0] bet slices_S2x128_o0_0_S1x128) shapeCasts_S1x128_S128) shapeCasts_S128_S1x128)
            broadcasts_S1x128_S512x128 (ix2 r e) = _
  rw [row_of_pair_apply 0 gam _ _ _ _ (0 : Fin 2) rfl r e, row_of_pair_apply 0 bet _ _ _ _ (0 : Fin 2) rfl r e, zBody_apply]
  rfl

end TileProj

section
variable (X : TX.Idx → EReal) (lw lb : Vec Ideal S768 .f32) (Wh : TWh.Idx → EReal) (bh : T3072.Idx → EReal)
  (Wqk : TWqk.Idx → EReal) (bqk : Vec Ideal S128 .f32) (gam bet : Vec Ideal S2x128 .f32)
  (b : Fin 4) (k : Fin 4) (x : Vec Ideal S1x512x768 .f32)
  (hx : ∀ (r : Fin 512) (d : Fin 768), x (ix3 (0 : Fin 1) r d) = X (ix3 b (pos k r) d))

include hx in
/-- The normalised tile at row `r`, column `d` is the normalised row `512 k + r` of batch `b` at `d`. -/
theorem lnT_apply (r : Fin 512) (d : Fin 768) :
    lnT (F := Ideal) lw lb x (ix2 r d) = nrm X lw lb b (pos k r) d :=
  TileProj.lnBody_eq_nrm X lw lb b (pos k) _
    (fun r' d' => (shapeCast_1ab_ab_apply x shapeCasts_S1x512x768_S512x768 r' d').trans (hx r' d')) r d

include hx in
/-- The same for the spelling of the normalisation the gate uses. -/
theorem ln39_apply (r : Fin 512) (d : Fin 768) :
    k0_pay39 (F := Ideal) lw lb x (ix2 r d) = nrm X lw lb b (pos k r) d :=
  TileProj.lnBody_eq_nrm X lw lb b (pos k) _
    (fun r' d' => (shapeCast_1ab_ab_apply x shapeCasts_S1x512x768_S512x768 r' d').trans (hx r' d')) r d

include hx in
/-- The value tile, when its weights are the first 1536 rows of `W_hidden`, transposed, and its bias the first 1536 entries. -/
theorem vT_apply (wv : Vec Ideal S768x1536 .bf16) (bv : Vec Ideal S1536 .f32)
    (hwv : ∀ (d : Fin 768) (h : Fin 1536), wv (ix2 d h) = Wh (ix2 (⟨h.val, by have := h.isLt; omega⟩ : Fin 3072) d))
    (hbv : ∀ h : Fin 1536, bv (ix1 h) = bh (ix1 (⟨h.val, by have := h.isLt; omega⟩ : Fin 3072)))
    (r : Fin 512) (h : Fin 1536) :
    vT (F := Ideal) lw lb wv bv x (ix2 r h) = vv X lw lb Wh bh b (pos k r) h := by
  refine (TileProj.pay5_apply (k0_pay2 (F := Ideal) bv) (lnT (F := Ideal) lw lb x) wv r h).trans ?_
  refine congrArg silu ?_
  refine congrArg₂ (· + ·) (Finset.sum_congr rfl fun d _ => ?_) ?_
  · rw [lnT_apply X lw lb b k x hx r d, hwv d h]
  · exact (congrFun (shapeCast_self bv shapeCasts_S1536_S1536) (ix1 h)).trans (hbv h)

include hx in
/-- The gate tile, when its weights are the last 1536 rows of `W_hidden`, transposed, and its bias the last 1536 entries. -/
theorem gT_apply (wg : Vec Ideal S768x1536 .bf16) (bg : Vec Ideal S1536 .f32)
    (hwg : ∀ (d : Fin 768) (h : Fin 1536), wg (ix2 d h) = Wh (ix2 (⟨1536 + h.val, by have := h.isLt; omega⟩ : Fin 3072) d))
    (hbg : ∀ h : Fin 1536, bg (ix1 h) = bh (ix1 (⟨1536 + h.val, by have := h.isLt; omega⟩ : Fin 3072)))
    (r : Fin 512) (h : Fin 1536) :
    gT (F := Ideal) lw lb wg bg x (ix2 r h) = gate X lw lb Wh bh b (pos k r) h := by
  refine (TileProj.pay41_apply (k0_pay3 (F := Ideal) bg) (k0_pay39 (F := Ideal) lw lb x) wg r h).trans ?_
  refine congrArg silu ?_
  refine congrArg₂ (· + ·) (Finset.sum_congr rfl fun d _ => ?_) ?_
  · rw [ln39_apply X lw lb b k x hx r d, hwg d h]
  · exact (congrFun (shapeCast_self bg shapeCasts_S1536_S1536) (ix1 h)).trans (hbg h)

include hx in
/-- The key tile, when its weights are `W_qk` transposed. -/
theorem kT_apply (wqk : Vec Ideal S768x128 .bf16)
    (hwqk : ∀ (d : Fin 768) (e : Fin 128), wqk (ix2 d e) = Wqk (ix2 e d))
    (r : Fin 512) (e : Fin 128) :
    kT (F := Ideal) lw lb wqk bqk gam bet x (ix2 r e) = kk X lw lb Wqk bqk gam bet b (pos k r) e := by
  refine (TileProj.pay6_apply gam bet bqk (lnT (F := Ideal) lw lb x) wqk r e).trans ?_
  refine congrArg (fun t => silu (t + bqk (ix1 e)) * gam (ix2 (1 : Fin 2) e) + bet (ix2 (1 : Fin 2) e)) ?_
  refine Finset.sum_congr rfl fun d _ => ?_
  rw [lnT_apply X lw lb b k x hx r d, hwqk d e]

include hx in
/-- The query tile likewise. -/
theorem qT_apply (wqk : Vec Ideal S768x128 .bf16)
    (hwqk : ∀ (d : Fin 768) (e : Fin 128), wqk (ix2 d e) = Wqk (ix2 e d))
    (r : Fin 512) (e : Fin 128) :
    qT (F := Ideal) lw lb wqk bqk gam bet x (ix2 r e) = qq X lw lb Wqk bqk gam bet b (pos k r) e := by
  refine (TileProj.pay40_apply lw lb gam bet bqk x wqk r e).trans ?_
  refine congrArg (fun t => silu (t + bqk (ix1 e)) * gam (ix2 (0 : Fin 2) e) + bet (ix2 (0 : Fin 2) e)) ?_
  refine Finset.sum_congr rfl fun d _ => ?_
  rw [ln39_apply X lw lb b k x hx r d, hwqk d e]

end

end Cert.KernelIdeal.TileRead

end
-- ==== Proof.TileStep.lean ====
/-
  The attention step and the output step of one 512-row tile, read entry by entry on the extended reals.

  One accumulation step adds to the accumulator, at row `r` and column `h`, the sum over the 512 rows `j` of a key/value
  tile of the squared rectified scaled similarity of query row `r` and key row `j` times the value at `(j, h)`
  (`stepT_apply`); the accumulator starts from zero (`zero_apply`); the output step projects the gated accumulator by the
  output weights and adds the bias and the tile's own entry (`out47_apply`). Each of the three products is first read
  as a sum over its one contracted coordinate.
-/
import proofs.«134153_j60473139527723_2_alg».proof.Proof.Tile
import proofs.«134153_j60473139527723_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileRead

open Cert.KernelIdeal Cert.KernelIdeal.Gen Cert.KernelIdeal.Tile Cert.GauSpec
open Idealize.ShloMosaic Idealize.ShloMosaic.ValueIdx
open scoped BigOperators

namespace TileStep

/-! ### The three products of the attention step, each read at a row and a column

A product into the zero accumulator, read at row `r` and column `c`, is the sum over the one contracted coordinate
`k` of the left factor at `(r, k)` times the right factor at `(k, c)`: the contraction's index set is that one
coordinate, the left factor's row is the result's row, and the right factor's column is the result's column. -/

/-- The similarities: a `512 × 128` factor against a `128 × 512` factor. -/
theorem mm_qk_apply (lhs : FVec Ideal S512x128 .bf16) (rhs : FVec Ideal S128x512 .bf16) (r : Fin 512) (c : Fin 512) :
    matmul dot_S512x128_S128x512_S512x512_1_0_0_1_n_n none lhs rhs (constant (F := Ideal) S512x512 .f32 0x00000000#32) (ix2 r c)
      = ∑ k : Fin 128, lhs (ix2 r k) * rhs (ix2 k c) := by
  refine (Ideal.matmul_constant_zero_apply dot_S512x128_S128x512_S512x512_1_0_0_1_n_n none lhs rhs (ix2 r c)).trans ?_
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  -- the left factor's row is the result's row
  have l0 : ∀ q : dot_S512x128_S128x512_S512x512_1_0_0_1_n_n.contr.Idx, (dot_S512x128_S128x512_S512x512_1_0_0_1_n_n.lhsIdx (ix2 r c) q 0).val = r.val := fun q => by
    unfold DotDims.lhsIdx
    rw [dif_neg (show ¬(0 : Fin S512x128.rank) ∈ dot_S512x128_S128x512_S512x512_1_0_0_1_n_n.lhsBatch by decide),
      dif_pos (show (0 : Fin S512x128.rank) ∈ dot_S512x128_S128x512_S512x512_1_0_0_1_n_n.lhsNonContracting by decide)]
    rfl
  -- the right factor's column is the result's column
  have r1 : ∀ q : dot_S512x128_S128x512_S512x512_1_0_0_1_n_n.contr.Idx, (dot_S512x128_S128x512_S512x512_1_0_0_1_n_n.rhsIdx (ix2 r c) q 1).val = c.val := fun q => by
    unfold DotDims.rhsIdx
    rw [dif_neg (show ¬(1 : Fin S128x512.rank) ∈ dot_S512x128_S128x512_S512x512_1_0_0_1_n_n.rhsBatch by decide),
      dif_pos (show (1 : Fin S128x512.rank) ∈ dot_S512x128_S128x512_S512x512_1_0_0_1_n_n.rhsNonContracting by decide)]
    rfl
  have el : dot_S512x128_S128x512_S512x512_1_0_0_1_n_n.lhsIdx (ix2 r c) ((contrEquiv1 dot_S512x128_S128x512_S512x512_1_0_0_1_n_n 128 rfl rfl).symm k) = ix2 r k :=
    funext fun a => Fin.ext (by
      match a with
      | ⟨0, _⟩ => exact l0 _
      | ⟨1, _⟩ => exact (dot_S512x128_S128x512_S512x512_1_0_0_1_n_n.lhsIdx_val_of_single rfl _ _).trans hk)
  have er : dot_S512x128_S128x512_S512x512_1_0_0_1_n_n.rhsIdx (ix2 r c) ((contrEquiv1 dot_S512x128_S128x512_S512x512_1_0_0_1_n_n 128 rfl rfl).symm k) = ix2 k c :=
    funext fun a => Fin.ext (by
      match a with
      | ⟨0, _⟩ => exact (dot_S512x128_S128x512_S512x512_1_0_0_1_n_n.rhsIdx_val_of_single rfl _ _).trans hk
      | ⟨1, _⟩ => exact r1 _)
  rw [el, er]

/-- The weighted values: a `512 × 512` factor against a `512 × 1536` factor. -/
theorem mm_av_apply (lhs : FVec Ideal S512x512 .bf16) (rhs : FVec Ideal S512x1536 .bf16) (r : Fin 512) (c : Fin 1536) :
    matmul dot_S512x512_S512x1536_S512x1536_1_0_0_1_n_n none lhs rhs (constant (F := Ideal) S512x1536 .f32 0x00000000#32) (ix2 r c)
      = ∑ k : Fin 512, lhs (ix2 r k) * rhs (ix2 k c) := by
  refine (Ideal.matmul_constant_zero_apply dot_S512x512_S512x1536_S512x1536_1_0_0_1_n_n none lhs rhs (ix2 r c)).trans ?_
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  -- the left factor's row is the result's row
  have l0 : ∀ q : dot_S512x512_S512x1536_S512x1536_1_0_0_1_n_n.contr.Idx, (dot_S512x512_S512x1536_S512x1536_1_0_0_1_n_n.lhsIdx (ix2 r c) q 0).val = r.val := fun q => by
    unfold DotDims.lhsIdx
    rw [dif_neg (show ¬(0 : Fin S512x512.rank) ∈ dot_S512x512_S512x1536_S512x1536_1_0_0_1_n_n.lhsBatch by decide),
      dif_pos (show (0 : Fin S512x512.rank) ∈ dot_S512x512_S512x1536_S512x1536_1_0_0_1_n_n.lhsNonContracting by decide)]
    rfl
  -- the right factor's column is the result's column
  have r1 : ∀ q : dot_S512x512_S512x1536_S512x1536_1_0_0_1_n_n.contr.Idx, (dot_S512x512_S512x1536_S512x1536_1_0_0_1_n_n.rhsIdx (ix2 r c) q 1).val = c.val := fun q => by
    unfold DotDims.rhsIdx
    rw [dif_neg (show ¬(1 : Fin S512x1536.rank) ∈ dot_S512x512_S512x1536_S512x1536_1_0_0_1_n_n.rhsBatch by decide),
      dif_pos (show (1 : Fin S512x1536.rank) ∈ dot_S512x512_S512x1536_S512x1536_1_0_0_1_n_n.rhsNonContracting by decide)]
    rfl
  have el : dot_S512x512_S512x1536_S512x1536_1_0_0_1_n_n.lhsIdx (ix2 r c) ((contrEquiv1 dot_S512x512_S512x1536_S512x1536_1_0_0_1_n_n 512 rfl rfl).symm k) = ix2 r k :=
    funext fun a => Fin.ext (by
      match a with
      | ⟨0, _⟩ => exact l0 _
      | ⟨1, _⟩ => exact (dot_S512x512_S512x1536_S512x1536_1_0_0_1_n_n.lhsIdx_val_of_single rfl _ _).trans hk)
  have er : dot_S512x512_S512x1536_S512x1536_1_0_0_1_n_n.rhsIdx (ix2 r c) ((contrEquiv1 dot_S512x512_S512x1536_S512x1536_1_0_0_1_n_n 512 rfl rfl).symm k) = ix2 k c :=
    funext fun a => Fin.ext (by
      match a with
      | ⟨0, _⟩ => exact (dot_S512x512_S512x1536_S512x1536_1_0_0_1_n_n.rhsIdx_val_of_single rfl _ _).trans hk
      | ⟨1, _⟩ => exact r1 _)
  rw [el, er]

/-- The output projection: a `512 × 1536` factor against a `1536 × 768` factor. -/
theorem mm_out_apply (lhs : FVec Ideal S512x1536 .bf16) (rhs : FVec Ideal S1536x768 .bf16) (r : Fin 512) (c : Fin 768) :
    matmul dot_S512x1536_S1536x768_S512x768_1_0_0_1_n_n none lhs rhs (constant (F := Ideal) S512x768 .f32 0x00000000#32) (ix2 r c)
      = ∑ k : Fin 1536, lhs (ix2 r k) * rhs (ix2 k c) := by
  refine (Ideal.matmul_constant_zero_apply dot_S512x1536_S1536x768_S512x768_1_0_0_1_n_n none lhs rhs (ix2 r c)).trans ?_
  rw [← Equiv.sum_comp (contrEquiv1 dot_S512x1536_S1536x768_S512x768_1_0_0_1_n_n 1536 rfl rfl).symm]
  refine Finset.sum_congr rfl fun k _ => ?_
  have hk := contrEquiv1_symm_val dot_S512x1536_S1536x768_S512x768_1_0_0_1_n_n 1536 rfl rfl k
  -- the left factor's row is the result's row
  have l0 : ∀ q : dot_S512x1536_S1536x768_S512x768_1_0_0_1_n_n.contr.Idx, (dot_S512x1536_S1536x768_S512x768_1_0_0_1_n_n.lhsIdx (ix2 r c) q 0).val = r.val := fun q => by
    unfold DotDims.lhsIdx
    rw [dif_neg (show ¬(0 : Fin S512x1536.rank) ∈ dot_S512x1536_S1536x768_S512x768_1_0_0_1_n_n.lhsBatch by decide),
      dif_pos (show (0 : Fin S512x1536.rank) ∈ dot_S512x1536_S1536x768_S512x768_1_0_0_1_n_n.lhsNonContracting by decide)]
    rfl
  -- the right factor's column is the result's column
  have r1 : ∀ q : dot_S512x1536_S1536x768_S512x768_1_0_0_1_n_n.contr.Idx, (dot_S512x1536_S1536x768_S512x768_1_0_0_1_n_n.rhsIdx (ix2 r c) q 1).val = c.val := fun q => by
    unfold DotDims.rhsIdx
    rw [dif_neg (show ¬(1 : Fin S1536x768.rank) ∈ dot_S512x1536_S1536x768_S512x768_1_0_0_1_n_n.rhsBatch by decide),
      dif_pos (show (1 : Fin S1536x768.rank) ∈ dot_S512x1536_S1536x768_S512x768_1_0_0_1_n_n.rhsNonContracting by decide)]
    rfl
  have el : dot_S512x1536_S1536x768_S512x768_1_0_0_1_n_n.lhsIdx (ix2 r c) ((contrEquiv1 dot_S512x1536_S1536x768_S512x768_1_0_0_1_n_n 1536 rfl rfl).symm k) = ix2 r k :=
    funext fun a => Fin.ext (by
      match a with
      | ⟨0, _⟩ => exact l0 _
      | ⟨1, _⟩ => exact (dot_S512x1536_S1536x768_S512x768_1_0_0_1_n_n.lhsIdx_val_of_single rfl _ _).trans hk)
  have er : dot_S512x1536_S1536x768_S512x768_1_0_0_1_n_n.rhsIdx (ix2 r c) ((contrEquiv1 dot_S512x1536_S1536x768_S512x768_1_0_0_1_n_n 1536 rfl rfl).symm k) = ix2 k c :=
    funext fun a => Fin.ext (by
      match a with
      | ⟨0, _⟩ => exact (dot_S512x1536_S1536x768_S512x768_1_0_0_1_n_n.rhsIdx_val_of_single rfl _ _).trans hk
      | ⟨1, _⟩ => exact r1 _)
  rw [el, er]

end TileStep

/-- The zero tile is zero. -/
theorem zero_apply (r : Fin 512) (h : Fin 1536) : k0_pay42 (F := Ideal) (ix2 r h) = 0 := by
  unfold k0_pay42
  -- a cast between equal shapes changes nothing; every entry of the splat is the word `+0.0`, which is zero
  refine (congrFun (shapeCast_self _ _) (ix2 r h)).trans ?_
  exact Ideal.ofBits_zero_f32

/-- One accumulation step at row `r`, column `h`: the accumulator there plus, over the 512 rows `j` of the key/value
    tile, the squared rectified scaled similarity of query row `r` and key row `j` times the value at `(j, h)`. -/
theorem stepT_apply (q : FVec Ideal S512x128 .bf16) (kt : Vec Ideal S512x128 .bf16) (v : Vec Ideal S512x1536 .bf16)
    (acc : Vec Ideal S512x1536 .f32) (r : Fin 512) (h : Fin 1536) :
    stepT (F := Ideal) q kt v acc (ix2 r h)
      = acc (ix2 r h) + ∑ j : Fin 512,
          (max ((∑ e : Fin 128, q (ix2 r e) * kt (ix2 j e)) * cinv) czero
            * max ((∑ e : Fin 128, q (ix2 r e) * kt (ix2 j e)) * cinv) czero) * v (ix2 j h) := by
  show k0_pay43 (F := Ideal) q kt v acc (ix2 r h) = _
  unfold k0_pay43
  -- the last cast is between equal shapes; the sum reads entry by entry
  refine (congrFun (shapeCast_self _ _) (ix2 r h)).trans ?_
  refine (addf_apply _ _ _).trans (congrArg (acc (ix2 r h) + ·) ?_)
  -- the weights times the values: a sum over the key/value rows
  refine (TileStep.mm_av_apply _ v r h).trans ?_
  refine Finset.sum_congr rfl fun j _ => congrArg (· * v (ix2 j h)) ?_
  -- the similarity of query row `r` and key row `j`: the key tile is read transposed
  have e : matmul dot_S512x128_S128x512_S512x512_1_0_0_1_n_n none q
        (transpose S128x512 [1, 0] kt Facts₀.transposes_S512x128_p1_0_S128x512)
        (constant (F := Ideal) S512x512 .f32 0x00000000#32) (ix2 r j)
      = ∑ e : Fin 128, q (ix2 r e) * kt (ix2 j e) :=
    (TileStep.mm_qk_apply q _ r j).trans
      (Finset.sum_congr rfl fun e _ => congrArg (q (ix2 r e) * ·) (transpose_ix2_apply kt _ e j))
  -- scaling, rectifying and squaring are entry by entry, and the narrowing of the format keeps the value
  exact congrArg (fun s : EReal => max (s * cinv) czero * max (s * cinv) czero) e

/-- The output tile's last step at row `r`, column `d`: the gated accumulator projected by the output weights, plus the
    bias, plus the tile's own entry. -/
theorem out47_apply (bo : Vec Ideal S768 .f32) (xq : Vec Ideal S1x512x768 .f32) (g : FVec Ideal S512x1536 .f32)
    (acc : Vec Ideal S512x1536 .f32) (wo : Vec Ideal S1536x768 .bf16) (r : Fin 512) (d : Fin 768) :
    k0_pay47 (F := Ideal) bo (k0_pay38 xq) g acc wo (ix3 (0 : Fin 1) r d)
      = ((∑ h : Fin 1536, (acc (ix2 r h) * g (ix2 r h)) * wo (ix2 h d)) + bo (ix1 d)) + xq (ix3 (0 : Fin 1) r d) := by
  unfold k0_pay47 k0_pay38
  -- the leading unit axis put back: entry `(0, r, d)` is entry `(r, d)`; the two sums read entry by entry
  refine (shapeCast_ab_1ab_apply _ _ (0 : Fin 1) r d).trans ?_
  refine (addf_apply _ _ _).trans (congrArg₂ (· + ·) ?_ ?_)
  · refine (addf_apply _ _ _).trans (congrArg₂ (· + ·) ?_ ?_)
    · -- the projection: a sum over the 1536 columns of the gated accumulator; the weights' cast is between equal shapes
      refine (TileStep.mm_out_apply _ _ r d).trans ?_
      exact Finset.sum_congr rfl fun h _ =>
        congrArg ((acc (ix2 r h) * g (ix2 r h)) * ·) (congrFun (shapeCast_self wo _) (ix2 h d))
    · -- the bias as one row, repeated over the 512 rows
      refine (broadcastTo_1b_ab_apply _ _ r d).trans ?_
      exact shapeCast_a_1a_apply bo _ (0 : Fin 1) d
  · -- the tile's own rows with the leading unit axis dropped
    exact shapeCast_1ab_ab_apply xq _ r d

end Cert.KernelIdeal.TileRead

end
-- ==== Proof.TileOut.lean ====
/-
  One output tile is the specification's output on the tile's rows.

  For the query rows `512 kq + r` of batch `b`: the accumulator after the four steps is the attention-weighted sum of the
  values over all 2048 positions (a sum over 2048 positions is the sum of its four blocks of 512, taken in order from
  zero), the gate tile is the gate, and the last step projects the gated sum by the output weights and adds the bias
  and the rows themselves.
-/
import proofs.«134153_j60473139527723_2_alg».proof.Proof.TileProj
import proofs.«134153_j60473139527723_2_alg».proof.Proof.TileStep

noncomputable section

namespace Cert.KernelIdeal.TileRead

open Cert.KernelIdeal Cert.KernelIdeal.Gen Cert.KernelIdeal.Tile Cert.GauSpec
open Idealize.ShloMosaic Idealize.ShloMosaic.ValueIdx
open scoped BigOperators

section
variable (X : TX.Idx → EReal) (lw lb : Vec Ideal S768 .f32) (Wh : TWh.Idx → EReal) (bh : T3072.Idx → EReal)
  (Wqk : TWqk.Idx → EReal) (bqk : Vec Ideal S128 .f32) (gam bet : Vec Ideal S2x128 .f32)
  (b : Fin 4) (kq : Fin 4)

/-- The accumulator of a query tile whose rows are the queries of positions `512 kq + r`, over key and value tiles that are
    the keys and the values of the four blocks of positions, is the attention-weighted sum of the values over all positions. -/
theorem accK_apply (q : FVec Ideal S512x128 .bf16)
    (hq : ∀ (r : Fin 512) (e : Fin 128), q (ix2 r e) = qq X lw lb Wqk bqk gam bet b (pos kq r) e)
    (k0 k1 k2 k3 : Vec Ideal S512x128 .bf16) (v0 v1 v2 v3 : Vec Ideal S512x1536 .bf16)
    (hk0 : ∀ (j : Fin 512) (e : Fin 128), k0 (ix2 j e) = kk X lw lb Wqk bqk gam bet b (pos 0 j) e)
    (hk1 : ∀ (j : Fin 512) (e : Fin 128), k1 (ix2 j e) = kk X lw lb Wqk bqk gam bet b (pos 1 j) e)
    (hk2 : ∀ (j : Fin 512) (e : Fin 128), k2 (ix2 j e) = kk X lw lb Wqk bqk gam bet b (pos 2 j) e)
    (hk3 : ∀ (j : Fin 512) (e : Fin 128), k3 (ix2 j e) = kk X lw lb Wqk bqk gam bet b (pos 3 j) e)
    (hv0 : ∀ (j : Fin 512) (h : Fin 1536), v0 (ix2 j h) = vv X lw lb Wh bh b (pos 0 j) h)
    (hv1 : ∀ (j : Fin 512) (h : Fin 1536), v1 (ix2 j h) = vv X lw lb Wh bh b (pos 1 j) h)
    (hv2 : ∀ (j : Fin 512) (h : Fin 1536), v2 (ix2 j h) = vv X lw lb Wh bh b (pos 2 j) h)
    (hv3 : ∀ (j : Fin 512) (h : Fin 1536), v3 (ix2 j h) = vv X lw lb Wh bh b (pos 3 j) h)
    (r : Fin 512) (h : Fin 1536) :
    accK (F := Ideal) q k0 k1 k2 k3 v0 v1 v2 v3 (ix2 r h) = av X lw lb Wh bh Wqk bqk gam bet b (pos kq r) h := by
  unfold accK
  rw [stepT_apply, stepT_apply, stepT_apply, stepT_apply, zero_apply]
  unfold av
  rw [sum_blocks]
  simp only [hq, hk0, hk1, hk2, hk3, hv0, hv1, hv2, hv3]
  rfl

/-- The output tile at row `r`, column `d` is the specification's output at position `512 kq + r`, column `d`. -/
theorem outK_apply (Wo : TWo.Idx → EReal) (bo : Vec Ideal S768 .f32)
    (xq : Vec Ideal S1x512x768 .f32)
    (hxq : ∀ (r : Fin 512) (d : Fin 768), xq (ix3 (0 : Fin 1) r d) = X (ix3 b (pos kq r) d))
    (wg : Vec Ideal S768x1536 .bf16) (bg : Vec Ideal S1536 .f32)
    (hwg : ∀ (d : Fin 768) (h : Fin 1536), wg (ix2 d h) = Wh (ix2 (⟨1536 + h.val, by have := h.isLt; omega⟩ : Fin 3072) d))
    (hbg : ∀ h : Fin 1536, bg (ix1 h) = bh (ix1 (⟨1536 + h.val, by have := h.isLt; omega⟩ : Fin 3072)))
    (wqk : Vec Ideal S768x128 .bf16) (hwqk : ∀ (d : Fin 768) (e : Fin 128), wqk (ix2 d e) = Wqk (ix2 e d))
    (wo : Vec Ideal S1536x768 .bf16) (hwo : ∀ (h : Fin 1536) (d : Fin 768), wo (ix2 h d) = Wo (ix2 d h))
    (k0 k1 k2 k3 : Vec Ideal S512x128 .bf16) (v0 v1 v2 v3 : Vec Ideal S512x1536 .bf16)
    (hk0 : ∀ (j : Fin 512) (e : Fin 128), k0 (ix2 j e) = kk X lw lb Wqk bqk gam bet b (pos 0 j) e)
    (hk1 : ∀ (j : Fin 512) (e : Fin 128), k1 (ix2 j e) = kk X lw lb Wqk bqk gam bet b (pos 1 j) e)
    (hk2 : ∀ (j : Fin 512) (e : Fin 128), k2 (ix2 j e) = kk X lw lb Wqk bqk gam bet b (pos 2 j) e)
    (hk3 : ∀ (j : Fin 512) (e : Fin 128), k3 (ix2 j e) = kk X lw lb Wqk bqk gam bet b (pos 3 j) e)
    (hv0 : ∀ (j : Fin 512) (h : Fin 1536), v0 (ix2 j h) = vv X lw lb Wh bh b (pos 0 j) h)
    (hv1 : ∀ (j : Fin 512) (h : Fin 1536), v1 (ix2 j h) = vv X lw lb Wh bh b (pos 1 j) h)
    (hv2 : ∀ (j : Fin 512) (h : Fin 1536), v2 (ix2 j h) = vv X lw lb Wh bh b (pos 2 j) h)
    (hv3 : ∀ (j : Fin 512) (h : Fin 1536), v3 (ix2 j h) = vv X lw lb Wh bh b (pos 3 j) h)
    (r : Fin 512) (d : Fin 768) :
    outK (F := Ideal) lw lb wg bg wqk bqk gam bet wo bo xq k0 k1 k2 k3 v0 v1 v2 v3 (ix3 (0 : Fin 1) r d)
      = out X lw lb Wh bh Wqk bqk gam bet Wo bo b (pos kq r) d := by
  unfold outK
  rw [out47_apply, hxq]
  unfold out
  refine congrArg (· + X (ix3 b (pos kq r) d)) (congrArg (· + bo (ix1 d)) (Finset.sum_congr rfl fun h _ => ?_))
  rw [hwo, gT_apply X lw lb Wh bh b kq xq hxq wg bg hwg hbg,
    accK_apply X lw lb Wh bh Wqk bqk gam bet b kq _ (fun r e => qT_apply X lw lb Wqk bqk gam bet b kq xq hxq wqk hwqk r e)
      k0 k1 k2 k3 v0 v1 v2 v3 hk0 hk1 hk2 hk3 hv0 hv1 hv2 hv3]

end

end Cert.KernelIdeal.TileRead

end
-- ==== Proof.Final.lean ====
/-
  From the four tiles of a batch's block to the whole result array.

  The key scratch, filled 512 rows at a time, holds ONE function of the row: the key of that position (and the value
  scratch the value); so a load of 512 of its rows reads the keys (the values) of those positions. With that, each of
  the four output tiles the body stores is the specification's output on its rows; the block a grid point writes back
  is batch `t` of the specification's output array; the four batches cover the array.
-/
import proofs.«134153_j60473139527723_2_alg».proof.Proof.Gen.KernelIdeal.Value
import proofs.«134153_j60473139527723_2_alg».proof.Proof.Pieces
import proofs.«134153_j60473139527723_2_alg».proof.Proof.Windows
import proofs.«134153_j60473139527723_2_alg».proof.Proof.TileOut
import proofs.«134153_j60473139527723_2_alg».proof.Proof.Spec
import Idealize.ShloMosaic.Lib.Pipeline.Value
import Idealize.ShloMosaic.Lib.Tactic

set_option maxRecDepth 16384

noncomputable section

namespace Cert.KernelIdeal.Final

open Cert.KernelIdeal Cert.KernelIdeal.Gen Cert.KernelIdeal.Value Cert.KernelIdeal.Pieces Cert.KernelIdeal.Windows
open Cert.KernelIdeal.TileRead Cert.GauSpec
open Idealize.ShloMosaic Idealize.ShloMosaic.TcCoe Idealize.ShloMosaic.ValueIdx Idealize.SL.Sem
open Idealize.ShloMosaic.Pipeline (Dat)
open scoped BigOperators

/-! ## What the two scratch arrays hold -/

section Scratch
variable (X : TX.Idx → EReal) (lw lb : Vec Ideal S768 .f32) (Wh : TWh.Idx → EReal) (bh : T3072.Idx → EReal)
  (Wqk : TWqk.Idx → EReal) (bqk : Vec Ideal S128 .f32) (gam bet : Vec Ideal S2x128 .f32) (b : Fin 4)
  (x0 : Vec Ideal S1x2048x768 .f32)
  (hx0 : ∀ (s : Fin 2048) (d : Fin 768), x0 (ix3 (0 : Fin 1) s d) = X (ix3 b s d))
  (wv : Vec Ideal S768x1536 .bf16) (bv : Vec Ideal S1536 .f32)
  (hwv : ∀ (d : Fin 768) (h : Fin 1536), wv (ix2 d h) = Wh (ix2 (⟨h.val, by have := h.isLt; omega⟩ : Fin 3072) d))
  (hbv : ∀ h : Fin 1536, bv (ix1 h) = bh (ix1 (⟨h.val, by have := h.isLt; omega⟩ : Fin 3072)))
  (wqk : Vec Ideal S768x128 .bf16) (hwqk : ∀ (d : Fin 768) (e : Fin 128), wqk (ix2 d e) = Wqk (ix2 e d))

/-- The key scratch as one function of its index: row `s` holds the key of position `s`. -/
def keyFull : S2048x128.Idx → EReal := fun y =>
  kk X lw lb Wqk bqk gam bet b ⟨(y 0).val, (y 0).isLt⟩ ⟨(y 1).val, (y 1).isLt⟩

include hx0 hwqk in
/-- The key tile of rows `o …` is the block of that function at rows `o …`. -/
theorem key_piece (k : Fin 4) (o : Nat) (ho : o = 512 * k.val)
    (h : ∀ a, (![o, 0] : Fin 2 → Nat) a + S512x128.size a ≤ S2048x128.size a)
    (h' : ∀ a, (![0, o, 0] : Fin 3 → Nat) a + S1x512x768.size a ≤ S1x2048x768.size a) (x : S512x128.Idx) :
    Tile.kT (F := Ideal) lw lb wqk bqk gam bet (xrows x0 o h') x
      = keyFull X lw lb Wqk bqk gam bet b ((Rect.unit (s := S2048x128) ![o, 0] S512x128.size h).emb x) := by
  have hx : x = ix2 (⟨(x 0).val, (x 0).isLt⟩ : Fin 512) (⟨(x 1).val, (x 1).isLt⟩ : Fin 128) :=
    funext fun a => by match a with | ⟨0, _⟩ => rfl | ⟨1, _⟩ => rfl
  rw [hx, kT_apply X lw lb Wqk bqk gam bet b k (xrows x0 o h')
    (fun r d => (rows_apply x0 o h' r d (pos k r) (by rw [ho]; rfl)).trans (hx0 _ _)) wqk hwqk]
  unfold keyFull
  refine congrArg₂ (kk X lw lb Wqk bqk gam bet b) (Fin.ext ?_) (Fin.ext ?_)
  · show 512 * k.val + (x 0).val = o + 1 * (x 0).val; omega
  · show (x 1).val = 0 + 1 * (x 1).val; omega

include hx0 hwqk in
/-- Every block the scratch was filled with is a block of that one function. -/
theorem key_pieces_spec : ∀ p ∈ keyPieces x0 lw lb wqk bqk gam bet, ∀ x : p.1.shape.Idx,
    p.2 x = keyFull X lw lb Wqk bqk gam bet b (p.1.emb x) := by
  intro p hp x
  unfold keyPieces at hp
  simp only [List.mem_cons, List.not_mem_nil, or_false] at hp
  rcases hp with rfl | rfl | rfl | rfl
  · exact key_piece X lw lb Wqk bqk gam bet b x0 hx0 wqk hwqk 3 1536 rfl (by decide) (by decide) x
  · exact key_piece X lw lb Wqk bqk gam bet b x0 hx0 wqk hwqk 2 1024 rfl (by decide) (by decide) x
  · exact key_piece X lw lb Wqk bqk gam bet b x0 hx0 wqk hwqk 1 512 rfl (by decide) (by decide) x
  · exact key_piece X lw lb Wqk bqk gam bet b x0 hx0 wqk hwqk 0 0 rfl (by decide) (by decide) x

include hx0 hwqk in
/-- So a load of 512 rows from row `512 k` of the key scratch reads the keys of positions `512 k + j`. -/
theorem keyRows_apply (sv : View sig .tc .vmem S2048x128 .bf16) (k : Fin 4) (hk : k.val < 3) (o : Nat) (ho : o = 512 * k.val)
    (h : ∀ a, (![o, 0] : Fin 2 → Nat) a + S512x128.size a ≤ S2048x128.size a) (j : Fin 512) (e : Fin 128) :
    keyRows x0 lw lb wqk bqk gam bet sv o h (ix2 j e)
      = kk X lw lb Wqk bqk gam bet b (pos k j) e := by
  unfold keyRows
  rw [View.readCov_eq_canon']
  show View.canon _ ((Rect.unit (s := S2048x128) ![o, 0] S512x128.size h).toLoadRect.idx (ix2 j e)) = _
  rw [View.canon_apply_of_pieces (keyFull X lw lb Wqk bqk gam bet b) _
    (key_pieces_spec X lw lb Wqk bqk gam bet b x0 hx0 wqk hwqk)]
  · unfold keyFull
    refine congrArg₂ (kk X lw lb Wqk bqk gam bet b) (Fin.ext ?_) (Fin.ext ?_)
    · show o + 1 * j.val = 512 * k.val + j.val; omega
    · show 0 + 1 * e.val = e.val; omega
  · -- the block that holds row `o + j`
    have hk3 : k.val = 0 ∨ k.val = 1 ∨ k.val = 2 := by omega
    unfold keyPieces
    rcases hk3 with h0 | h1 | h2
    · refine ⟨_, .tail _ (.tail _ (.tail _ (.head _))), ?_⟩
      rw [Rect.mem_set_unit]
      intro a
      match a with
      | ⟨0, _⟩ => show 0 ≤ o + 1 * j.val ∧ o + 1 * j.val < 0 + 512; have := j.isLt; omega
      | ⟨1, _⟩ => show 0 ≤ 0 + 1 * e.val ∧ 0 + 1 * e.val < 0 + 128; have := e.isLt; omega
    · refine ⟨_, .tail _ (.tail _ (.head _)), ?_⟩
      rw [Rect.mem_set_unit]
      intro a
      match a with
      | ⟨0, _⟩ => show 512 ≤ o + 1 * j.val ∧ o + 1 * j.val < 512 + 512; have := j.isLt; omega
      | ⟨1, _⟩ => show 0 ≤ 0 + 1 * e.val ∧ 0 + 1 * e.val < 0 + 128; have := e.isLt; omega
    · refine ⟨_, .tail _ (.head _), ?_⟩
      rw [Rect.mem_set_unit]
      intro a
      match a with
      | ⟨0, _⟩ => show 1024 ≤ o + 1 * j.val ∧ o + 1 * j.val < 1024 + 512; have := j.isLt; omega
      | ⟨1, _⟩ => show 0 ≤ 0 + 1 * e.val ∧ 0 + 1 * e.val < 0 + 128; have := e.isLt; omega

/-- The value scratch as one function of its index: row `s` holds the values of position `s`. -/
def valFull : S2048x1536.Idx → EReal := fun y =>
  vv X lw lb Wh bh b ⟨(y 0).val, (y 0).isLt⟩ ⟨(y 1).val, (y 1).isLt⟩

include hx0 hwv hbv in
/-- The value tile of rows `o …` is the block of that function at rows `o …`. -/
theorem val_piece (k : Fin 4) (o : Nat) (ho : o = 512 * k.val)
    (h : ∀ a, (![o, 0] : Fin 2 → Nat) a + S512x1536.size a ≤ S2048x1536.size a)
    (h' : ∀ a, (![0, o, 0] : Fin 3 → Nat) a + S1x512x768.size a ≤ S1x2048x768.size a) (x : S512x1536.Idx) :
    Tile.vT (F := Ideal) lw lb wv bv (xrows x0 o h') x
      = valFull X lw lb Wh bh b ((Rect.unit (s := S2048x1536) ![o, 0] S512x1536.size h).emb x) := by
  have hx : x = ix2 (⟨(x 0).val, (x 0).isLt⟩ : Fin 512) (⟨(x 1).val, (x 1).isLt⟩ : Fin 1536) :=
    funext fun a => by match a with | ⟨0, _⟩ => rfl | ⟨1, _⟩ => rfl
  rw [hx, vT_apply X lw lb Wh bh b k (xrows x0 o h')
    (fun r d => (rows_apply x0 o h' r d (pos k r) (by rw [ho]; rfl)).trans (hx0 _ _)) wv bv hwv hbv]
  unfold valFull
  refine congrArg₂ (vv X lw lb Wh bh b) (Fin.ext ?_) (Fin.ext ?_)
  · show 512 * k.val + (x 0).val = o + 1 * (x 0).val; omega
  · show (x 1).val = 0 + 1 * (x 1).val; omega

include hx0 hwv hbv in
/-- Every block the scratch was filled with is a block of that one function. -/
theorem val_pieces_spec : ∀ p ∈ valPieces x0 lw lb wv bv, ∀ x : p.1.shape.Idx,
    p.2 x = valFull X lw lb Wh bh b (p.1.emb x) := by
  intro p hp x
  unfold valPieces at hp
  simp only [List.mem_cons, List.not_mem_nil, or_false] at hp
  rcases hp with rfl | rfl | rfl | rfl
  · exact val_piece X lw lb Wh bh b x0 hx0 wv bv hwv hbv 3 1536 rfl (by decide) (by decide) x
  · exact val_piece X lw lb Wh bh b x0 hx0 wv bv hwv hbv 2 1024 rfl (by decide) (by decide) x
  · exact val_piece X lw lb Wh bh b x0 hx0 wv bv hwv hbv 1 512 rfl (by decide) (by decide) x
  · exact val_piece X lw lb Wh bh b x0 hx0 wv bv hwv hbv 0 0 rfl (by decide) (by decide) x

include hx0 hwv hbv in
/-- So a load of 512 rows from row `512 k` of the value scratch reads the values of positions `512 k + j`. -/
theorem valRows_apply (sv : View sig .tc .vmem S2048x1536 .bf16) (k : Fin 4) (hk : k.val < 3) (o : Nat) (ho : o = 512 * k.val)
    (h : ∀ a, (![o, 0] : Fin 2 → Nat) a + S512x1536.size a ≤ S2048x1536.size a) (j : Fin 512) (h' : Fin 1536) :
    valRows x0 lw lb wv bv sv o h (ix2 j h')
      = vv X lw lb Wh bh b (pos k j) h' := by
  unfold valRows
  rw [View.readCov_eq_canon']
  show View.canon _ ((Rect.unit (s := S2048x1536) ![o, 0] S512x1536.size h).toLoadRect.idx (ix2 j h')) = _
  rw [View.canon_apply_of_pieces (valFull X lw lb Wh bh b) _
    (val_pieces_spec X lw lb Wh bh b x0 hx0 wv bv hwv hbv)]
  · unfold valFull
    refine congrArg₂ (vv X lw lb Wh bh b) (Fin.ext ?_) (Fin.ext ?_)
    · show o + 1 * j.val = 512 * k.val + j.val; omega
    · show 0 + 1 * h'.val = h'.val; omega
  · -- the block that holds row `o + j`
    have hk3 : k.val = 0 ∨ k.val = 1 ∨ k.val = 2 := by omega
    unfold valPieces
    rcases hk3 with h0 | h1 | h2
    · refine ⟨_, .tail _ (.tail _ (.tail _ (.head _))), ?_⟩
      rw [Rect.mem_set_unit]
      intro a
      match a with
      | ⟨0, _⟩ => show 0 ≤ o + 1 * j.val ∧ o + 1 * j.val < 0 + 512; have := j.isLt; omega
      | ⟨1, _⟩ => show 0 ≤ 0 + 1 * h'.val ∧ 0 + 1 * h'.val < 0 + 1536; have := h'.isLt; omega
    · refine ⟨_, .tail _ (.tail _ (.head _)), ?_⟩
      rw [Rect.mem_set_unit]
      intro a
      match a with
      | ⟨0, _⟩ => show 512 ≤ o + 1 * j.val ∧ o + 1 * j.val < 512 + 512; have := j.isLt; omega
      | ⟨1, _⟩ => show 0 ≤ 0 + 1 * h'.val ∧ 0 + 1 * h'.val < 0 + 1536; have := h'.isLt; omega
    · refine ⟨_, .tail _ (.head _), ?_⟩
      rw [Rect.mem_set_unit]
      intro a
      match a with
      | ⟨0, _⟩ => show 1024 ≤ o + 1 * j.val ∧ o + 1 * j.val < 1024 + 512; have := j.isLt; omega
      | ⟨1, _⟩ => show 0 ≤ 0 + 1 * h'.val ∧ 0 + 1 * h'.val < 0 + 1536; have := h'.isLt; omega

end Scratch

/-! ## The four output tiles -/

section Tiles
variable (X : TX.Idx → EReal) (lw lb : Vec Ideal S768 .f32) (Wh : TWh.Idx → EReal) (bh : T3072.Idx → EReal)
  (Wqk : TWqk.Idx → EReal) (bqk : Vec Ideal S128 .f32) (gam bet : Vec Ideal S2x128 .f32) (Wo : TWo.Idx → EReal)
  (bo : Vec Ideal S768 .f32) (b : Fin 4)
  (x0 : Vec Ideal S1x2048x768 .f32)
  (hx0 : ∀ (s : Fin 2048) (d : Fin 768), x0 (ix3 (0 : Fin 1) s d) = X (ix3 b s d))
  (wv : Vec Ideal S768x1536 .bf16) (bv : Vec Ideal S1536 .f32)
  (hwv : ∀ (d : Fin 768) (h : Fin 1536), wv (ix2 d h) = Wh (ix2 (⟨h.val, by have := h.isLt; omega⟩ : Fin 3072) d))
  (hbv : ∀ h : Fin 1536, bv (ix1 h) = bh (ix1 (⟨h.val, by have := h.isLt; omega⟩ : Fin 3072)))
  (wg : Vec Ideal S768x1536 .bf16) (bg : Vec Ideal S1536 .f32)
  (hwg : ∀ (d : Fin 768) (h : Fin 1536), wg (ix2 d h) = Wh (ix2 (⟨1536 + h.val, by have := h.isLt; omega⟩ : Fin 3072) d))
  (hbg : ∀ h : Fin 1536, bg (ix1 h) = bh (ix1 (⟨1536 + h.val, by have := h.isLt; omega⟩ : Fin 3072)))
  (wqk : Vec Ideal S768x128 .bf16) (hwqk : ∀ (d : Fin 768) (e : Fin 128), wqk (ix2 d e) = Wqk (ix2 e d))
  (wo : Vec Ideal S1536x768 .bf16) (hwo : ∀ (h : Fin 1536) (d : Fin 768), wo (ix2 h d) = Wo (ix2 d h))

include hx0 hwv hbv hwg hbg hwqk hwo in
/-- The output tile of the query rows `512 k …` at row `r`, column `d` is the specification's output at position
    `512 k + r`: its query rows, its gate, the four key tiles and the four value tiles are those of the specification. -/
theorem outRows_apply (kv : View sig .tc .vmem S2048x128 .bf16) (vw : View sig .tc .vmem S2048x1536 .bf16)
    (k : Fin 4) (o : Nat) (ho : o = 512 * k.val)
    (h : ∀ a, (![0, o, 0] : Fin 3 → Nat) a + S1x512x768.size a ≤ S1x2048x768.size a) (r : Fin 512) (d : Fin 768) :
    outRows x0 lw lb wv bv wg bg wqk bqk gam bet wo bo kv vw o h (ix3 (0 : Fin 1) r d)
      = out X lw lb Wh bh Wqk bqk gam bet Wo bo b (pos k r) d := by
  have hrows : ∀ (k' : Fin 4) (o' : Nat) (ho' : o' = 512 * k'.val)
      (h' : ∀ a, (![0, o', 0] : Fin 3 → Nat) a + S1x512x768.size a ≤ S1x2048x768.size a) (r' : Fin 512) (d' : Fin 768),
      xrows x0 o' h' (ix3 (0 : Fin 1) r' d') = X (ix3 b (pos k' r') d') :=
    fun k' o' ho' h' r' d' => (rows_apply x0 o' h' r' d' (pos k' r') (by rw [ho']; rfl)).trans (hx0 _ _)
  unfold outRows
  exact outK_apply X lw lb Wh bh Wqk bqk gam bet b k Wo bo (xrows x0 o h) (hrows k o ho h) wg bg hwg hbg wqk hwqk wo hwo
    _ _ _ _ _ _ _ _
    (fun j e => keyRows_apply X lw lb Wqk bqk gam bet b x0 hx0 wqk hwqk kv 0 (by decide) 0 rfl _ j e)
    (fun j e => keyRows_apply X lw lb Wqk bqk gam bet b x0 hx0 wqk hwqk kv 1 (by decide) 512 rfl _ j e)
    (fun j e => keyRows_apply X lw lb Wqk bqk gam bet b x0 hx0 wqk hwqk kv 2 (by decide) 1024 rfl _ j e)
    (fun j e => kT_apply X lw lb Wqk bqk gam bet b 3 (xrows x0 1536 (by decide)) (hrows 3 1536 rfl _) wqk hwqk j e)
    (fun j h' => valRows_apply X lw lb Wh bh b x0 hx0 wv bv hwv hbv vw 0 (by decide) 0 rfl _ j h')
    (fun j h' => valRows_apply X lw lb Wh bh b x0 hx0 wv bv hwv hbv vw 1 (by decide) 512 rfl _ j h')
    (fun j h' => valRows_apply X lw lb Wh bh b x0 hx0 wv bv hwv hbv vw 2 (by decide) 1024 rfl _ j h')
    (fun j h' => vT_apply X lw lb Wh bh b 3 (xrows x0 1536 (by decide)) (hrows 3 1536 rfl _) wv bv hwv hbv j h')
    r d

/-- The specification's output on one batch, as a function of the index into the batch's block. -/
def blockOut : S1x2048x768.Idx → EReal := fun y =>
  out X lw lb Wh bh Wqk bqk gam bet Wo bo b ⟨(y 1).val, (y 1).isLt⟩ ⟨(y 2).val, (y 2).isLt⟩

include hx0 hwv hbv hwg hbg hwqk hwo in
/-- A stored tile is the block of that function at its rows. -/
theorem tile_spec (kv : View sig .tc .vmem S2048x128 .bf16) (vw : View sig .tc .vmem S2048x1536 .bf16)
    (k : Fin 4) (o : Nat) (ho : o = 512 * k.val)
    (h : ∀ a, (![0, o, 0] : Fin 3 → Nat) a + S1x512x768.size a ≤ S1x2048x768.size a) (x : S1x512x768.Idx) :
    outRows x0 lw lb wv bv wg bg wqk bqk gam bet wo bo kv vw o h x
      = blockOut X lw lb Wh bh Wqk bqk gam bet Wo bo b ((Rect.unit (s := S1x2048x768) ![0, o, 0] S1x512x768.size h).emb x) := by
  have hx : x = ix3 (0 : Fin 1) (⟨(x 1).val, (x 1).isLt⟩ : Fin 512) (⟨(x 2).val, (x 2).isLt⟩ : Fin 768) :=
    funext fun a => by
      match a with
      | ⟨0, _⟩ => exact Fin.ext (by have : (x 0).val < 1 := (x 0).isLt; show (x 0).val = 0; omega)
      | ⟨1, _⟩ => rfl
      | ⟨2, _⟩ => rfl
  rw [hx, outRows_apply X lw lb Wh bh Wqk bqk gam bet Wo bo b x0 hx0 wv bv hwv hbv wg bg hwg hbg wqk hwqk wo hwo kv vw k o ho h]
  unfold blockOut
  refine congrArg₂ (out X lw lb Wh bh Wqk bqk gam bet Wo bo b) (Fin.ext ?_) (Fin.ext ?_)
  · show 512 * k.val + (x 1).val = o + 1 * (x 1).val; omega
  · show (x 2).val = 0 + 1 * (x 2).val; omega

include hx0 hwv hbv hwg hbg hwqk hwo in
/-- What one run of the body leaves in the output block is the specification's output on the batch. -/
theorem out13_eq (c : Dev nD) (i : grid0.Coords) (arg1 : Memref sig .tc .vmem S1x2048x768 .f32) (harg1 : arg1.IsWhole) (arg2 : Memref sig .tc .vmem S768 .f32) (harg2 : arg2.IsWhole) (arg3 : Memref sig .tc .vmem S768 .f32) (harg3 : arg3.IsWhole) (arg4 : Memref sig .tc .vmem S768x1536 .bf16) (harg4 : arg4.IsWhole) (arg5 : Memref sig .tc .vmem S1536 .f32) (harg5 : arg5.IsWhole) (arg6 : Memref sig .tc .vmem S768x1536 .bf16) (harg6 : arg6.IsWhole) (arg7 : Memref sig .tc .vmem S1536 .f32) (harg7 : arg7.IsWhole) (arg8 : Memref sig .tc .vmem S768x128 .bf16) (harg8 : arg8.IsWhole) (arg9 : Memref sig .tc .vmem S128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S1536x768 .bf16) (harg12 : arg12.IsWhole) (arg13 : Memref sig .tc .vmem S768 .f32) (harg13 : arg13.IsWhole) (arg14 : Memref sig .tc .vmem S1x2048x768 .f32) (harg14 : arg14.IsWhole) (arg15 : Memref sig .tc .vmem S2048x1536 .bf16) (harg15 : arg15.IsWhole) (arg16 : Memref sig .tc .vmem S2048x128 .bf16) (harg16 : arg16.IsWhole) (arg17 : Memref sig .tc .vmem S512x1536 .f32) (harg17 : arg17.IsWhole)
    (y : S1x2048x768.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 lw lb wv bv wg bg wqk bqk gam bet wo bo y
      = blockOut X lw lb Wh bh Wqk bqk gam bet Wo bo b y := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 lw lb wv bv wg bg wqk bqk gam bet wo bo)]
  refine View.canon_apply_of_pieces (blockOut X lw lb Wh bh Wqk bqk gam bet Wo bo b) _ ?_ y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 lw lb wv bv wg bg wqk bqk gam bet wo bo y)
  rw [pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 lw lb wv bv wg bg wqk bqk gam bet wo bo]
  intro p hp x
  simp only [List.mem_cons, List.not_mem_nil, or_false] at hp
  rcases hp with rfl | rfl | rfl | rfl
  · exact tile_spec X lw lb Wh bh Wqk bqk gam bet Wo bo b x0 hx0 wv bv hwv hbv wg bg hwg hbg wqk hwqk wo hwo _ _ 3 1536 rfl (by decide) x
  · exact tile_spec X lw lb Wh bh Wqk bqk gam bet Wo bo b x0 hx0 wv bv hwv hbv wg bg hwg hbg wqk hwqk wo hwo _ _ 2 1024 rfl (by decide) x
  · exact tile_spec X lw lb Wh bh Wqk bqk gam bet Wo bo b x0 hx0 wv bv hwv hbv wg bg hwg hbg wqk hwqk wo hwo _ _ 1 512 rfl (by decide) x
  · exact tile_spec X lw lb Wh bh Wqk bqk gam bet Wo bo b x0 hx0 wv bv hwv hbv wg bg hwg hbg wqk hwqk wo hwo _ _ 0 0 rfl (by decide) x

end Tiles

/-! ## The array the kernel leaves -/

section Array
variable (m : (ℓ : Loc nD τ sig) → Buf (Elt Ideal) ℓ) (ρ : Dev nD → PrngReg)

/-- The specification's output array of the arguments as launched. -/
def Gm (c : Dev nD) : S4x2048x768.Idx → EReal :=
  G (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- An index of the result array is in point `t`'s block iff each coordinate is in the block's range on its axis. -/
theorem mem_blk13 (t : Fin cfg0.N) (i : S4x2048x768.Idx) :
    i ∈ ((cfg0.win 13).blk t).view.set ↔ ∀ a : Fin 3, win0_13.index t a * S1x2048x768.size a ≤ (i a).val
      ∧ (i a).val < win0_13.index t a * S1x2048x768.size a + S1x2048x768.size a := by
  show i ∈ ((View.whole main_v12).slice (win0_13.rect t)).set ↔ _
  rw [View.set_slice_whole, Rect.mem_set_unit]
  exact Iff.rfl

/-- What point `t` writes back is batch `t` of the specification's output array. -/
theorem flushed_eq (c : Dev nD) (t : Fin cfg0.N) :
    (dats m 0 c).flushed 13 t = ((cfg0.win 13).blk t).view.read (Elt Ideal) (Gm m c) := by
  have hN : cfg0.N = 4 := N_0
  obtain ⟨i00, i01, i02, i1, i2, i30, i31, i4, i50, i51, i6, i70, i71, i8, i90, i91, i100, i101, i110, i111, i12, i130, i131, i132⟩ := idx_facts t
  rw [flushed13_A]
  funext y
  show out0_A_13 (F := Ideal) c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = Gm m c (((cfg0.win 13).blk t).view.emb y)
  rw [out13_eq (m ((c : Thread nD τ).loc main_arg0)) (iblk m c 1 t) (iblk m c 2 t) (m ((c : Thread nD τ).loc main_arg3)) (m ((c : Thread nD τ).loc main_arg4)) (m ((c : Thread nD τ).loc main_arg5)) (iblk m c 8 t) (iblk m c 9 t) (iblk m c 10 t) (m ((c : Thread nD τ).loc main_arg9)) (iblk m c 12 t)
    (⟨t.val, by rw [← hN]; exact t.isLt⟩ : Fin 4) (iblk m c 0 t) (fun s d => iblk0_apply m c t _ rfl s d)
    (iblk m c 3 t) (iblk m c 4 t) (fun d h => iblk3_apply m c t d h) (fun h => iblk4_apply m c t h)
    (iblk m c 5 t) (iblk m c 6 t) (fun d h => iblk5_apply m c t d h) (fun h => iblk6_apply m c t h)
    (iblk m c 7 t) (fun d e => iblk7_apply m c t d e)
    (iblk m c 11 t) (fun h d => iblk11_apply m c t h d)]
  rw [iblk1_eq, iblk2_eq, iblk8_eq, iblk9_eq, iblk10_eq, iblk12_eq]
  unfold blockOut Gm G
  refine congr (congr (congrArg (out _ _ _ _ _ _ _ _ _ _ _) (Fin.ext ?_)) (Fin.ext ?_)) (Fin.ext ?_)
  · show t.val = win0_13.index t (0 : Fin 3) * 1 + 1 * (y 0).val
    have : (y 0).val < 1 := (y 0).isLt
    rw [i130]; omega
  · show (y 1).val = win0_13.index t (1 : Fin 3) * 2048 + 1 * (y 1).val
    rw [i131]; omega
  · show (y 2).val = win0_13.index t (2 : Fin 3) * 768 + 1 * (y 2).val
    rw [i132]; omega

/-- The four batches' blocks cover the result array: after the run it is the specification's output array. -/
theorem final (c : Dev nD) : (dats m 0 c).arrAt 13 cfg0.N = Gm m c :=
  (dats m 0 c).arrAt_eq_of_cover 13 (Gm m c) (fun t _ => flushed_eq m c t) fun i => by
    have hN : cfg0.N = 4 := N_0
    refine ⟨⟨(i 0).val, by rw [hN]; exact (i 0).isLt⟩, flush0_13 _, ?_⟩
    obtain ⟨-, -, -, -, -, -, -, -, -, -, -, -, -, -, -, -, -, -, -, -, -, i130, i131, i132⟩ :=
      idx_facts (⟨(i 0).val, by rw [hN]; exact (i 0).isLt⟩ : Fin cfg0.N)
    rw [mem_blk13]
    intro a
    match a with
    | ⟨0, _⟩ =>
      show win0_13.index _ (0 : Fin 3) * 1 ≤ (i 0).val ∧ (i 0).val < win0_13.index _ (0 : Fin 3) * 1 + 1
      rw [i130]
      show (i 0).val * 1 ≤ (i 0).val ∧ (i 0).val < (i 0).val * 1 + 1
      omega
    | ⟨1, _⟩ =>
      show win0_13.index _ (1 : Fin 3) * 2048 ≤ (i 1).val ∧ (i 1).val < win0_13.index _ (1 : Fin 3) * 2048 + 2048
      have : (i 1).val < 2048 := (i 1).isLt
      rw [i131]; omega
    | ⟨2, _⟩ =>
      show win0_13.index _ (2 : Fin 3) * 768 ≤ (i 2).val ∧ (i 2).val < win0_13.index _ (2 : Fin 3) * 768 + 768
      have : (i 2).val < 768 := (i 2).isLt
      rw [i132]; omega

/-- The kernel's run, read: the result array ends at the specification's output array of the arguments, which are unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Array

end Cert.KernelIdeal.Final

end
-- ==== Proof.RefSpec.lean ====
/-
  The reference program's result, read index by index, is the specification's output array.

  The reference computes the gated attention unit one stage at a time. Each lemma below reads one named quantity of
  the specification off the reference's stages, at explicit coordinates (a batch, a sequence position, a column):
  * the row sum divided by the word of 768 is the row's mean; the input minus the broadcast mean is the deviation;
    the row sum of squared deviations divided by the word of 768 is the variance; the deviation times the reciprocal
    root of the variance plus epsilon, times the scale plus the shift, is the normalised row;
  * a contraction of the normalised row with a weight row plus a bias, passed through `y * (1 / (1 + exp (-y)))`, is a
    projection `silu (…)`: the hidden projection (3072 columns) and the shared query/key projection (128 columns);
  * the query and the key are that projection scaled and shifted by the first and the second row of gamma and beta;
  * the similarity divided by the word of 2048 is the similarity times the word of `2⁻¹¹`; rectified against the zero
    word and squared it is the attention weight;
  * the two column slices of the hidden projection are the values (columns `h`) and the gate (columns `1536 + h`);
  * the weights contracted with the values over the positions, gated, contracted with a row of the output weights,
    plus the bias, plus the input, is the output.
  What is converted on the way: a sum accumulated from the zero word is the plain sum; the word of one denotes `1`, so
  the reference's reciprocal form of the logistic function is the logistic function; a division by the real 2048 is
  the product with the real `1 / 2048`, which is what the words of 2048 and of `2⁻¹¹` denote.
-/
import proofs.«134153_j60473139527723_2_alg».proof.Proof.Gen.ReferenceIdeal.Read
import proofs.«134153_j60473139527723_2_alg».proof.Proof.Spec
import Idealize.ShloMosaic.PureOps.Ideal
import Idealize.ShloMosaic.PureOps.Ideal.Laws
import Idealize.ShloMosaic.Lib.ValueIdx

noncomputable section

namespace Cert.ReferenceIdeal.RefSpec

open Cert.ReferenceIdeal Cert.ReferenceIdeal.Gen Cert.ReferenceIdeal.Read
open Idealize.ShloMosaic Idealize.ShloMosaic.ValueIdx
open scoped BigOperators

/-! ## The float words that are evaluated -/

/-- The word of `1.0` denotes `1`. -/
theorem word_one : Ideal.ofBits .f32 0x3F800000#32 = 1 := by
  simp [Ideal.ofBits, Ideal.ieee, -EReal.coe_mul]; norm_num

/-- The word of `2048.0` denotes the real `2048`. -/
theorem word_2048 : Ideal.ofBits .f32 0x45000000#32 = ((2048 : ℝ) : EReal) := by
  simp [Ideal.ofBits, Ideal.ieee, -EReal.coe_mul]; norm_num

/-- The word of `2⁻¹¹` denotes the real `1 / 2048`. -/
theorem word_inv2048 : Ideal.ofBits .f32 0x3A000000#32 = ((1 / 2048 : ℝ) : EReal) := by
  simp [Ideal.ofBits, Ideal.ieee, -EReal.coe_mul]; norm_num

/-! ## The stages, one named quantity at a time -/

section Stages

variable (x0 : (⟨S4x2048x768, .f32⟩ : BufTy).Contents (Elt Ideal)) (x1 x2 : (⟨S768, .f32⟩ : BufTy).Contents (Elt Ideal))
  (x3 : (⟨S3072x768, .f32⟩ : BufTy).Contents (Elt Ideal)) (x4 : (⟨S3072, .f32⟩ : BufTy).Contents (Elt Ideal))
  (x5 : (⟨S128x768, .f32⟩ : BufTy).Contents (Elt Ideal)) (x6 : (⟨S128, .f32⟩ : BufTy).Contents (Elt Ideal))
  (x7 x8 : (⟨S2x128, .f32⟩ : BufTy).Contents (Elt Ideal)) (x9 : (⟨S768x1536, .f32⟩ : BufTy).Contents (Elt Ideal))
  (x10 : (⟨S768, .f32⟩ : BufTy).Contents (Elt Ideal))

/-- The row sum divided by the word of 768, broadcast along a unit axis, is the row's mean. -/
theorem mean_eq (b : Fin 4) (s : Fin 2048) (z : Fin 1) :
    val_main_v3 (F := Ideal) x0 (ix3 b s z) = GauSpec.mean x0 b s := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold GauSpec.mean GauSpec.c768
  refine congrArg (fun t => Ideal.div t _) (Finset.sum_congr rfl fun k _ => congrArg x0 ?_)
  exact funext fun a => Fin.ext (by match a with | ⟨0, _⟩ => rfl | ⟨1, _⟩ => rfl | ⟨2, _⟩ => rfl)

/-- The first subtraction of the broadcast mean is the deviation from the mean. -/
theorem cen_eq (b : Fin 4) (s : Fin 2048) (d : Fin 768) :
    val_main_v5 (F := Ideal) x0 (ix3 b s d) = GauSpec.cen x0 b s d := by
  rw [val_main_v5_apply, val_main_v4_apply,
    show idx_main_v4 (ix3 b s d) = ix3 b s (⟨0, Nat.one_pos⟩ : Fin 1) from
      funext fun a => Fin.ext (by match a with | ⟨0, _⟩ => rfl | ⟨1, _⟩ => rfl | ⟨2, _⟩ => rfl),
    mean_eq]
  rfl

/-- The second subtraction of the broadcast mean is the same deviation. -/
theorem cen_eq' (b : Fin 4) (s : Fin 2048) (d : Fin 768) :
    val_main_v12 (F := Ideal) x0 (ix3 b s d) = GauSpec.cen x0 b s d := by
  rw [val_main_v12_apply, val_main_v11_apply,
    show idx_main_v11 (ix3 b s d) = ix3 b s (⟨0, Nat.one_pos⟩ : Fin 1) from
      funext fun a => Fin.ext (by match a with | ⟨0, _⟩ => rfl | ⟨1, _⟩ => rfl | ⟨2, _⟩ => rfl),
    mean_eq]
  rfl

/-- The row sum of the squared deviations divided by the word of 768 is the row's variance. -/
theorem var_eq (b : Fin 4) (s : Fin 2048) (z : Fin 1) :
    val_main_v10 (F := Ideal) x0 (ix3 b s z) = GauSpec.var x0 b s := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold GauSpec.var GauSpec.c768
  refine congrArg (fun t => Ideal.div t _) (Finset.sum_congr rfl fun k _ => ?_)
  rw [show idx_main_v7 (idx_main_v8 (ix3 b s z)) k = ix3 b s k from
      funext fun a => Fin.ext (by match a with | ⟨0, _⟩ => rfl | ⟨1, _⟩ => rfl | ⟨2, _⟩ => rfl),
    val_main_v6_apply, cen_eq]
  rfl

/-- The normalised row: the deviation times the reciprocal root of the variance plus epsilon, scaled and shifted. -/
theorem nrm_eq (b : Fin 4) (s : Fin 2048) (d : Fin 768) :
    val_main_v23 (F := Ideal) x0 x1 x2 (ix3 b s d) = GauSpec.nrm x0 x1 x2 b s d := by
  rw [val_main_v23_apply, val_main_v20_apply, val_main_v17_apply, val_main_v16_apply, val_main_v15_apply,
    val_main_v14_apply, val_main_v13_apply, val_main_cst_3_apply, val_main_v19_apply, val_main_v18_apply,
    val_main_v22_apply, val_main_v21_apply, cen_eq',
    show idx_main_v16 (ix3 b s d) = ix3 b s (⟨0, Nat.one_pos⟩ : Fin 1) from
      funext fun a => Fin.ext (by match a with | ⟨0, _⟩ => rfl | ⟨1, _⟩ => rfl | ⟨2, _⟩ => rfl),
    var_eq,
    show idx_main_v18 (idx_main_v19 (ix3 b s d)) = ix1 d from
      funext fun a => Fin.ext (by match a with | ⟨0, _⟩ => rfl),
    show idx_main_v21 (idx_main_v22 (ix3 b s d)) = ix1 d from
      funext fun a => Fin.ext (by match a with | ⟨0, _⟩ => rfl)]
  rfl

/-- The reference's spelling of silu, `y * (1 / (1 + exp (-y)))` with the word of one, is `y` times the logistic of `y`. -/
theorem silu_eq (y : EReal) :
    y * Ideal.div (Ideal.ofBits .f32 0x3F800000#32) (Ideal.ofBits .f32 0x3F800000#32 + Ideal.exp (-y)) = GauSpec.silu y := by
  rw [word_one]
  rfl

/-- The hidden projection before its activation: the normalised row against a row of the weights, plus the bias. -/
theorem hidpre_eq (b : Fin 4) (s : Fin 2048) (h : Fin 3072) :
    val_main_v27 (F := Ideal) x0 x1 x2 x3 x4 (ix3 b s h)
      = (∑ k : Fin 768, GauSpec.nrm x0 x1 x2 b s k * x3 (ix2 h k)) + x4 (ix1 h) := by
  rw [val_main_v27_apply, val_main_v24_apply, val_main_v26_apply, val_main_v25_apply,
    show idx_main_v25 (idx_main_v26 (ix3 b s h)) = ix1 h from
      funext fun a => Fin.ext (by match a with | ⟨0, _⟩ => rfl)]
  refine congrArg (fun t => FloatOps.addf t _) (Finset.sum_congr rfl fun k _ => ?_)
  rw [show lidx_main_v24 (ix3 b s h) k = ix3 b s k from
      funext fun a => Fin.ext (by match a with | ⟨0, _⟩ => rfl | ⟨1, _⟩ => rfl | ⟨2, _⟩ => rfl),
    show ridx_main_v24 (ix3 b s h) k = ix2 h k from
      funext fun a => Fin.ext (by match a with | ⟨0, _⟩ => rfl | ⟨1, _⟩ => rfl),
    nrm_eq]

/-- The hidden projection: silu of the affine image of the normalised row. -/
theorem hid_eq (b : Fin 4) (s : Fin 2048) (h : Fin 3072) :
    val_main_v28 (F := Ideal) x0 x1 x2 x3 x4 (ix3 b s h) = GauSpec.hid x0 x1 x2 x3 x4 b s h := by
  rw [val_main_v28_apply, val_main_call0_v5_apply, val_main_call0_v4_apply, val_main_call0_cst_0_apply,
    val_main_call0_v3_apply, val_main_call0_v2_apply, val_main_call0_cst_apply, val_main_call0_v1_apply,
    val_main_call0_v0_apply, hidpre_eq]
  simp only [Ideal.hostDivf_def, Ideal.ofBits_def, Ideal.mulf_def, Ideal.addf_def, Ideal.hostUnary_exp_def,
    Ideal.hostNegf_def, Ideal.negf_def]
  exact silu_eq _

/-- The query/key projection before its activation. -/
theorem zzpre_eq (b : Fin 4) (s : Fin 2048) (e : Fin 128) :
    val_main_v34 (F := Ideal) x0 x1 x2 x5 x6 (ix3 b s e)
      = (∑ k : Fin 768, GauSpec.nrm x0 x1 x2 b s k * x5 (ix2 e k)) + x6 (ix1 e) := by
  rw [val_main_v34_apply, val_main_v31_apply, val_main_v33_apply, val_main_v32_apply,
    show idx_main_v32 (idx_main_v33 (ix3 b s e)) = ix1 e from
      funext fun a => Fin.ext (by match a with | ⟨0, _⟩ => rfl)]
  refine congrArg (fun t => FloatOps.addf t _) (Finset.sum_congr rfl fun k _ => ?_)
  rw [show lidx_main_v31 (ix3 b s e) k = ix3 b s k from
      funext fun a => Fin.ext (by match a with | ⟨0, _⟩ => rfl | ⟨1, _⟩ => rfl | ⟨2, _⟩ => rfl),
    show ridx_main_v31 (ix3 b s e) k = ix2 e k from
      funext fun a => Fin.ext (by match a with | ⟨0, _⟩ => rfl | ⟨1, _⟩ => rfl),
    nrm_eq]

/-- The shared query/key projection: silu of the affine image of the normalised row. -/
theorem zz_eq (b : Fin 4) (s : Fin 2048) (e : Fin 128) :
    val_main_v35 (F := Ideal) x0 x1 x2 x5 x6 (ix3 b s e) = GauSpec.zz x0 x1 x2 x5 x6 b s e := by
  rw [val_main_v35_apply, val_main_call1_v5_apply, val_main_call1_v4_apply, val_main_call1_cst_0_apply,
    val_main_call1_v3_apply, val_main_call1_v2_apply, val_main_call1_cst_apply, val_main_call1_v1_apply,
    val_main_call1_v0_apply, zzpre_eq]
  simp only [Ideal.hostDivf_def, Ideal.ofBits_def, Ideal.mulf_def, Ideal.addf_def, Ideal.hostUnary_exp_def,
    Ideal.hostNegf_def, Ideal.negf_def]
  exact silu_eq _

/-- The query: the projection scaled by the first row of gamma and shifted by the first row of beta. -/
theorem qq_eq (b : Fin 4) (s : Fin 2048) (e : Fin 128) :
    val_main_v45 (F := Ideal) x0 x1 x2 x5 x6 x7 x8 (ix3 b s e) = GauSpec.qq x0 x1 x2 x5 x6 x7 x8 b s e := by
  rw [val_main_v45_apply, val_main_v40_apply, val_main_v39_apply, val_main_v38_apply, val_main_v37_apply,
    val_main_v36_apply, val_main_v44_apply, val_main_v43_apply, val_main_v42_apply, val_main_v41_apply, zz_eq,
    show idx_main_v36 (idx_main_v37 (idx_main_v38 (idx_main_v39 (ix3 b s e)))) = ix2 (0 : Fin 2) e from
      funext fun a => Fin.ext (by
        match a with
        | ⟨0, _⟩ => rfl
        | ⟨1, _⟩ => exact Nat.mod_eq_of_lt e.isLt),
    show idx_main_v41 (idx_main_v42 (idx_main_v43 (idx_main_v44 (ix3 b s e)))) = ix2 (0 : Fin 2) e from
      funext fun a => Fin.ext (by
        match a with
        | ⟨0, _⟩ => rfl
        | ⟨1, _⟩ => exact Nat.mod_eq_of_lt e.isLt)]
  rfl

/-- The key: the projection scaled by the second row of gamma and shifted by the second row of beta. -/
theorem kk_eq (b : Fin 4) (s : Fin 2048) (e : Fin 128) :
    val_main_v55 (F := Ideal) x0 x1 x2 x5 x6 x7 x8 (ix3 b s e) = GauSpec.kk x0 x1 x2 x5 x6 x7 x8 b s e := by
  rw [val_main_v55_apply, val_main_v50_apply, val_main_v49_apply, val_main_v48_apply, val_main_v47_apply,
    val_main_v46_apply, val_main_v54_apply, val_main_v53_apply, val_main_v52_apply, val_main_v51_apply, zz_eq,
    show idx_main_v46 (idx_main_v47 (idx_main_v48 (idx_main_v49 (ix3 b s e)))) = ix2 (1 : Fin 2) e from
      funext fun a => Fin.ext (by
        match a with
        | ⟨0, _⟩ => rfl
        | ⟨1, _⟩ => exact Nat.mod_eq_of_lt e.isLt),
    show idx_main_v51 (idx_main_v52 (idx_main_v53 (idx_main_v54 (ix3 b s e)))) = ix2 (1 : Fin 2) e from
      funext fun a => Fin.ext (by
        match a with
        | ⟨0, _⟩ => rfl
        | ⟨1, _⟩ => exact Nat.mod_eq_of_lt e.isLt)]
  rfl

/-- Dividing by the word of 2048 is multiplying by the word of `2⁻¹¹`. -/
theorem div_2048 (y : EReal) :
    Ideal.div y (Ideal.ofBits .f32 0x45000000#32) = y * GauSpec.cinv := by
  unfold GauSpec.cinv
  rw [word_2048, word_inv2048]
  exact Ideal.div_coe (by norm_num : (2048 : ℝ) ≠ 0) y

/-- The scaled similarity of positions `i` and `j`: the query at `i` against the key at `j`, times `2⁻¹¹`. -/
theorem sim_eq (b : Fin 4) (i j : Fin 2048) :
    val_main_v58 (F := Ideal) x0 x1 x2 x5 x6 x7 x8 (ix3 b i j)
      = (∑ e : Fin 128, GauSpec.qq x0 x1 x2 x5 x6 x7 x8 b i e * GauSpec.kk x0 x1 x2 x5 x6 x7 x8 b j e) * GauSpec.cinv := by
  rw [val_main_v58_apply, val_main_v56_apply, val_main_v57_apply, val_main_cst_4_apply]
  simp only [Ideal.hostDivf_def, Ideal.ofBits_def]
  rw [div_2048]
  refine congrArg (fun t => t * _) (Finset.sum_congr rfl fun e _ => ?_)
  rw [show lidx_main_v56 (ix3 b i j) e = ix3 b i e from
      funext fun a => Fin.ext (by match a with | ⟨0, _⟩ => rfl | ⟨1, _⟩ => rfl | ⟨2, _⟩ => rfl),
    show ridx_main_v56 (ix3 b i j) e = ix3 b j e from
      funext fun a => Fin.ext (by match a with | ⟨0, _⟩ => rfl | ⟨1, _⟩ => rfl | ⟨2, _⟩ => rfl),
    qq_eq, kk_eq]

/-- The attention weight: the square of the rectified scaled similarity. -/
theorem att_eq (b : Fin 4) (i j : Fin 2048) :
    val_main_v60 (F := Ideal) x0 x1 x2 x5 x6 x7 x8 (ix3 b i j) = GauSpec.att x0 x1 x2 x5 x6 x7 x8 b i j := by
  rw [val_main_v60_apply, val_main_v59_apply, val_main_call2_v0_apply, val_main_call2_cst_apply, sim_eq]
  rfl

/-- The first half of the hidden projection's columns holds the values. -/
theorem vv_eq (b : Fin 4) (j : Fin 2048) (h : Fin 1536) :
    val_main_v29 (F := Ideal) x0 x1 x2 x3 x4 (ix3 b j h) = GauSpec.vv x0 x1 x2 x3 x4 b j h := by
  rw [val_main_v29_apply,
    show idx_main_v29 (ix3 b j h) = ix3 b j (⟨h.val, by have := h.isLt; omega⟩ : Fin 3072) from
      funext fun a => Fin.ext (by match a with | ⟨0, _⟩ => rfl | ⟨1, _⟩ => rfl | ⟨2, _⟩ => rfl),
    hid_eq]
  rfl

/-- The second half of the hidden projection's columns holds the gate. -/
theorem gate_eq (b : Fin 4) (i : Fin 2048) (h : Fin 1536) :
    val_main_v30 (F := Ideal) x0 x1 x2 x3 x4 (ix3 b i h) = GauSpec.gate x0 x1 x2 x3 x4 b i h := by
  rw [val_main_v30_apply,
    show idx_main_v30 (ix3 b i h) = ix3 b i (⟨1536 + h.val, by have := h.isLt; omega⟩ : Fin 3072) from
      funext fun a => Fin.ext (by match a with | ⟨0, _⟩ => rfl | ⟨1, _⟩ => rfl | ⟨2, _⟩ => rfl),
    hid_eq]
  rfl

/-- The attention-weighted values: the weights of a position against the value column, summed over the positions. -/
theorem av_eq (b : Fin 4) (i : Fin 2048) (h : Fin 1536) :
    val_main_v61 (F := Ideal) x0 x1 x2 x3 x4 x5 x6 x7 x8 (ix3 b i h) = GauSpec.av x0 x1 x2 x3 x4 x5 x6 x7 x8 b i h := by
  rw [val_main_v61_apply]
  unfold GauSpec.av
  refine Finset.sum_congr rfl fun j _ => ?_
  rw [show lidx_main_v61 (ix3 b i h) j = ix3 b i j from
      funext fun a => Fin.ext (by match a with | ⟨0, _⟩ => rfl | ⟨1, _⟩ => rfl | ⟨2, _⟩ => rfl),
    show ridx_main_v61 (ix3 b i h) j = ix3 b j h from
      funext fun a => Fin.ext (by match a with | ⟨0, _⟩ => rfl | ⟨1, _⟩ => rfl | ⟨2, _⟩ => rfl),
    att_eq, vv_eq]

/-- The unit's output: the gated weighted values against a row of the output weights, plus the bias, plus the input. -/
theorem out_eq (b : Fin 4) (i : Fin 2048) (d : Fin 768) :
    val_main_v67 (F := Ideal) x0 x1 x2 x3 x4 x5 x6 x7 x8 x9 x10 (ix3 b i d)
      = GauSpec.out x0 x1 x2 x3 x4 x5 x6 x7 x8 x9 x10 b i d := by
  rw [val_main_v67_apply, val_main_v66_apply, val_main_v63_apply, val_main_v65_apply, val_main_v64_apply,
    show idx_main_v64 (idx_main_v65 (ix3 b i d)) = ix1 d from
      funext fun a => Fin.ext (by match a with | ⟨0, _⟩ => rfl)]
  unfold GauSpec.out
  refine congrArg (fun t => FloatOps.addf (FloatOps.addf t _) _) (Finset.sum_congr rfl fun h _ => ?_)
  rw [show lidx_main_v63 (ix3 b i d) h = ix3 b i h from
      funext fun a => Fin.ext (by match a with | ⟨0, _⟩ => rfl | ⟨1, _⟩ => rfl | ⟨2, _⟩ => rfl),
    show ridx_main_v63 (ix3 b i d) h = ix2 d h from
      funext fun a => Fin.ext (by match a with | ⟨0, _⟩ => rfl | ⟨1, _⟩ => rfl),
    val_main_v62_apply, av_eq, gate_eq]
  rfl

end Stages

/-! ## The whole array -/

/-- The reference's last stage, read index by index, is the specification's output array. -/
theorem ref_eq (x0 : (⟨S4x2048x768, .f32⟩ : BufTy).Contents (Elt Ideal)) (x1 x2 : (⟨S768, .f32⟩ : BufTy).Contents (Elt Ideal)) (x3 : (⟨S3072x768, .f32⟩ : BufTy).Contents (Elt Ideal)) (x4 : (⟨S3072, .f32⟩ : BufTy).Contents (Elt Ideal)) (x5 : (⟨S128x768, .f32⟩ : BufTy).Contents (Elt Ideal)) (x6 : (⟨S128, .f32⟩ : BufTy).Contents (Elt Ideal)) (x7 x8 : (⟨S2x128, .f32⟩ : BufTy).Contents (Elt Ideal)) (x9 : (⟨S768x1536, .f32⟩ : BufTy).Contents (Elt Ideal)) (x10 : (⟨S768, .f32⟩ : BufTy).Contents (Elt Ideal)) :
    Cert.ReferenceIdeal.Read.val_main_v67 (F := Ideal) x0 x1 x2 x3 x4 x5 x6 x7 x8 x9 x10 = Cert.GauSpec.G x0 x1 x2 x3 x4 x5 x6 x7 x8 x9 x10 := by
  funext i
  obtain ⟨b, s, d, rfl⟩ : ∃ (b : Fin 4) (s : Fin 2048) (d : Fin 768), i = ix3 b s d := ⟨i 0, i 1, i 2, eq_ix3 i⟩
  exact out_eq x0 x1 x2 x3 x4 x5 x6 x7 x8 x9 x10 b s d

end Cert.ReferenceIdeal.RefSpec

end
-- ==== Proof.lean ====
/-
  The gated attention unit as one Pallas kernel (a grid over the four batches; inside, the 2048 rows in four tiles of 512)
  against its jnp reference: equal results on the extended reals.

  Both programs compute, for batch `b`, position `i` and column `d`,
      out = (∑ h, (∑ j, (max (q_i · k_j / 2048) 0)² * v_j,h) * gate_i,h * W_out d,h) + b_out d + x b,i,d
  with `q`, `k`, `v`, `gate` the scaled-and-shifted / split SiLU projections of the layer-normalised rows (`Cert.GauSpec`).
  The reference computes it stage by stage on whole arrays (`RefSpec.ref_eq`). The kernel computes it tile by tile:
  it keeps the keys and the values of a batch in two scratch arrays, written 512 rows at a time, and for each tile of 512
  query rows accumulates the attention over the four key/value tiles from zero — a sum over 2048 positions taken as its
  four consecutive blocks —, multiplies by `2⁻¹¹` where the reference divides by 2048, and uses the logistic function
  where the reference spells `1 / (1 + exp (-y))`; the weights reach it transposed and split, which is re-indexing, and the
  changes of float format are the identity on the extended reals. Only associativity and commutativity of the sums are
  used, so the finiteness of the inputs is never opened (`Final.run`).

  The three frame claims are the generated frames (the reference's is its generated run with the result dropped); the
  idealization rewrote nothing, so `preserves` is `True`.
-/
import proofs.«134153_j60473139527723_2_alg».proof.Defs
import proofs.«134153_j60473139527723_2_alg».proof.Proof.Gen.Kernel
import proofs.«134153_j60473139527723_2_alg».proof.Proof.Gen.Kernel.Skeleton
import proofs.«134153_j60473139527723_2_alg».proof.Proof.Gen.Kernel.Launch
import proofs.«134153_j60473139527723_2_alg».proof.Proof.Gen.Kernel.Points
import proofs.«134153_j60473139527723_2_alg».proof.Proof.Gen.Kernel.Frame
import proofs.«134153_j60473139527723_2_alg».proof.Proof.Gen.KernelIdeal
import proofs.«134153_j60473139527723_2_alg».proof.Proof.Gen.KernelIdeal.Skeleton
import proofs.«134153_j60473139527723_2_alg».proof.Proof.Gen.KernelIdeal.Launch
import proofs.«134153_j60473139527723_2_alg».proof.Proof.Gen.KernelIdeal.Points
import proofs.«134153_j60473139527723_2_alg».proof.Proof.Gen.KernelIdeal.Frame
import proofs.«134153_j60473139527723_2_alg».proof.Proof.Gen.ReferenceIdeal
import proofs.«134153_j60473139527723_2_alg».proof.Proof.Gen.Pre_finite_inputs
import proofs.«134153_j60473139527723_2_alg».proof.Proof.Gen.KernelIdeal.Value
import proofs.«134153_j60473139527723_2_alg».proof.Proof.Gen.ReferenceIdeal.Run
import proofs.«134153_j60473139527723_2_alg».proof.Proof.Gen.ReferenceIdeal.Read
import proofs.«134153_j60473139527723_2_alg».proof.Proof.Final
import proofs.«134153_j60473139527723_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification's output array of its arguments, and the
    reference's at the same function of arguments that agree. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v67_eq, Cert.ReferenceIdeal.RefSpec.ref_eq]
  obtain ⟨e0, e1, e2, e3, e4, e5, e6, e7, e8, e9, e10⟩ := hagree c
  rw [e0, e1, e2, e3, e4, e5, e6, e7, e8, e9, e10]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
